-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x32 : Shape := ⟨4, ![8, 512, 512, 32]⟩
abbrev S8x512x512x2 : Shape := ⟨4, ![8, 512, 512, 2]⟩
abbrev S_ : Shape := ⟨0, ![]⟩

class Facts : Prop where
  bcast_S_S8x512x512x32 : S_.BroadcastsInDim S8x512x512x32 (![] : Fin 0 → Fin S8x512x512x32.rank)
  reducesTo_S8x512x512x32_S_d0_1_2_3 : S8x512x512x32.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x512x512x32 .f32) (main_arg1 : FVec F S8x512x512x2 .f32) : IVec S_ 1 :=
  let main_v0 : FVec F S8x512x512x32 .f32 := Host.absf main_arg0
  let main_cst : FVec F S_ .f32 := constant S_ .f32 0x7F800000#32
  let main_v1 : FVec F S8x512x512x32 .f32 := broadcastInDim S8x512x512x32 ![] bcast_S_S8x512x512x32 main_cst
  let main_v2 : IVec S8x512x512x32 1 := cmpf .olt main_v0 main_v1
  let main_c : IVec S_ 1 := constantI S_ 1 1#1
  let main_v3 : IVec S_ 1 := (fun x v => Host.reduce IntOp.andi x v reducesTo_S8x512x512x32_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x512x512x32 : Shape := ⟨4, ![8, 512, 512, 32]⟩
abbrev S8x512x512x2 : Shape := ⟨4, ![8, 512, 512, 2]⟩
abbrev S8x512x512x1 : Shape := ⟨4, ![8, 512, 512, 1]⟩
abbrev S8x512x512 : Shape := ⟨3, ![8, 512, 512]⟩
abbrev S_ : Shape := ⟨0, ![]⟩
abbrev S8 : Shape := ⟨1, ![8]⟩
abbrev S8x1x1 : Shape := ⟨3, ![8, 1, 1]⟩
abbrev S8x512x512x3 : Shape := ⟨4, ![8, 512, 512, 3]⟩
abbrev S1x8x512x32 : Shape := ⟨4, ![1, 8, 512, 32]⟩
abbrev S1x8x512 : Shape := ⟨3, ![1, 8, 512]⟩
abbrev S8x512 : Shape := ⟨2, ![8, 512]⟩
abbrev S8x512x1 : Shape := ⟨3, ![8, 512, 1]⟩
abbrev S8x512x32 : Shape := ⟨3, ![8, 512, 32]⟩

abbrev nBuf : Space → Nat
  | .hbm => 193
  | .vmem => 18
  | .smem => 0
  | _ => 0

abbrev hbmTy0_0 (i : Nat) : BufTy := match i % 128 with
  | 0 => ⟨S8x512x512x32, .f32⟩
  | 1 => ⟨S8x512x512x2, .f32⟩
  | 2 => ⟨S8x512x512x1, .f32⟩
  | 3 => ⟨S8x512x512, .f32⟩
  | 4 => ⟨S_, .f32⟩
  | 5 => ⟨S8x512x512, .f32⟩
  | 6 => ⟨S8x512x512, .f32⟩
  | 7 => ⟨S_, .f32⟩
  | 8 => ⟨S8x512x512, .f32⟩
  | 9 => ⟨S8x512x512, .f32⟩
  | 10 => ⟨S_, .f32⟩
  | 11 => ⟨S8x512x512, .f32⟩
  | 12 => ⟨S8x512x512, .f32⟩
  | 13 => ⟨S8x512x512x1, .f32⟩
  | 14 => ⟨S8x512x512, .f32⟩
  | 15 => ⟨S_, .f32⟩
  | 16 => ⟨S8x512x512, .f32⟩
  | 17 => ⟨S8x512x512, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S8x512x512, .f32⟩
  | 25 => ⟨S8x512x512, .i32⟩
  | 26 => ⟨S_, .i32⟩
  | 27 => ⟨S8x512x512, .i32⟩
  | 28 => ⟨S8x512x512, .i32⟩
  | 29 => ⟨S8x512x512, .f32⟩
  | 30 => ⟨S8x512x512, .i32⟩
  | 31 => ⟨S_, .i32⟩
  | 32 => ⟨S8x512x512, .i32⟩
  | 33 => ⟨S8x512x512, .i32⟩
  | 34 => ⟨S_, .i32⟩
  | 35 => ⟨S_, .i32⟩
  | 36 => ⟨S_, .i32⟩
  | 37 => ⟨S8x512x512, .i32⟩
  | 38 => ⟨S8x512x512, .i32⟩
  | 39 => ⟨S_, .i32⟩
  | 40 => ⟨S8x512x512, .i32⟩
  | 41 => ⟨S8x512x512, .i32⟩
  | 42 => ⟨S_, .i32⟩
  | 43 => ⟨S_, .i32⟩
  | 44 => ⟨S_, .i32⟩
  | 45 => ⟨S8x512x512, .i32⟩
  | 46 => ⟨S8x512x512, .i32⟩
  | 47 => ⟨S_, .i32⟩
  | 48 => ⟨S8x512x512, .i32⟩
  | 49 => ⟨S8x512x512, .i32⟩
  | 50 => ⟨S_, .i32⟩
  | 51 => ⟨S_, .i32⟩
  | 52 => ⟨S_, .i32⟩
  | 53 => ⟨S8x512x512, .i32⟩
  | 54 => ⟨S8x512x512, .i32⟩
  | 55 => ⟨S_, .i32⟩
  | 56 => ⟨S8x512x512, .i32⟩
  | 57 => ⟨S8x512x512, .i32⟩
  | 58 => ⟨S_, .i32⟩
  | 59 => ⟨S_, .i32⟩
  | 60 => ⟨S_, .i32⟩
  | 61 => ⟨S8x512x512, .i32⟩
  | 62 => ⟨S8x512x512, .i32⟩
  | 63 => ⟨S_, .i32⟩
  | 64 => ⟨S8x512x512, .i32⟩
  | 65 => ⟨S8x512x512, .i32⟩
  | 66 => ⟨S8, .i32⟩
  | 67 => ⟨S8x1x1, .i32⟩
  | 68 => ⟨S_, .i32⟩
  | 69 => ⟨S8x1x1, .i32⟩
  | 70 => ⟨S8x1x1, .i1⟩
  | 71 => ⟨S_, .i32⟩
  | 72 => ⟨S8x1x1, .i32⟩
  | 73 => ⟨S8x1x1, .i32⟩
  | 74 => ⟨S8x1x1, .i32⟩
  | 75 => ⟨S_, .i32⟩
  | 76 => ⟨S8x512x512, .i32⟩
  | 77 => ⟨S8x512x512, .i1⟩
  | 78 => ⟨S_, .i32⟩
  | 79 => ⟨S8x512x512, .i32⟩
  | 80 => ⟨S8x512x512, .i32⟩
  | 81 => ⟨S8x512x512, .i32⟩
  | 82 => ⟨S_, .i32⟩
  | 83 => ⟨S8x512x512, .i32⟩
  | 84 => ⟨S8x512x512, .i1⟩
  | 85 => ⟨S_, .i32⟩
  | 86 => ⟨S8x512x512, .i32⟩
  | 87 => ⟨S8x512x512, .i32⟩
  | 88 => ⟨S8x512x512, .i32⟩
  | 89 => ⟨S8x512x512, .i32⟩
  | 90 => ⟨S8x512x512x1, .i32⟩
  | 91 => ⟨S8x512x512x1, .i32⟩
  | 92 => ⟨S8x512x512x1, .i32⟩
  | 93 => ⟨S8x512x512x3, .i32⟩
  | 94 => ⟨S8x512x512x32, .f32⟩
  | 95 => ⟨S_, .i32⟩
  | 96 => ⟨S8x1x1, .i32⟩
  | 97 => ⟨S8x1x1, .i1⟩
  | 98 => ⟨S_, .i32⟩
  | 99 => ⟨S8x1x1, .i32⟩
  | 100 => ⟨S8x1x1, .i32⟩
  | 101 => ⟨S8x1x1, .i32⟩
  | 102 => ⟨S_, .i32⟩
  | 103 => ⟨S8x512x512, .i32⟩
  | 104 => ⟨S8x512x512, .i1⟩
  | 105 => ⟨S_, .i32⟩
  | 106 => ⟨S8x512x512, .i32⟩
  | 107 => ⟨S8x512x512, .i32⟩
  | 108 => ⟨S8x512x512, .i32⟩
  | 109 => ⟨S_, .i32⟩
  | 110 => ⟨S8x512x512, .i32⟩
  | 111 => ⟨S8x512x512, .i1⟩
  | 112 => ⟨S_, .i32⟩
  | 113 => ⟨S8x512x512, .i32⟩
  | 114 => ⟨S8x512x512, .i32⟩
  | 115 => ⟨S8x512x512, .i32⟩
  | 116 => ⟨S8x512x512, .i32⟩
  | 117 => ⟨S8x512x512x1, .i32⟩
  | 118 => ⟨S8x512x512x1, .i32⟩
  | 119 => ⟨S8x512x512x1, .i32⟩
  | 120 => ⟨S8x512x512x3, .i32⟩
  | 121 => ⟨S8x512x512x32, .f32⟩
  | 122 => ⟨S_, .i32⟩
  | 123 => ⟨S8x1x1, .i32⟩
  | 124 => ⟨S8x1x1, .i1⟩
  | 125 => ⟨S_, .i32⟩
  | 126 => ⟨S8x1x1, .i32⟩
  | 127 => ⟨S8x1x1, .i32⟩
  | _ => ⟨S8x512x512x32, .f32⟩

abbrev hbmTy0_1 (i : Nat) : BufTy := match i % 128 with
  | 0 => ⟨S8x1x1, .i32⟩
  | 1 => ⟨S_, .i32⟩
  | 2 => ⟨S8x512x512, .i32⟩
  | 3 => ⟨S8x512x512, .i1⟩
  | 4 => ⟨S_, .i32⟩
  | 5 => ⟨S8x512x512, .i32⟩
  | 6 => ⟨S8x512x512, .i32⟩
  | 7 => ⟨S8x512x512, .i32⟩
  | 8 => ⟨S_, .i32⟩
  | 9 => ⟨S8x512x512, .i32⟩
  | 10 => ⟨S8x512x512, .i1⟩
  | 11 => ⟨S_, .i32⟩
  | 12 => ⟨S8x512x512, .i32⟩
  | 13 => ⟨S8x512x512, .i32⟩
  | 14 => ⟨S8x512x512, .i32⟩
  | 15 => ⟨S8x512x512, .i32⟩
  | 16 => ⟨S8x512x512x1, .i32⟩
  | 17 => ⟨S8x512x512x1, .i32⟩
  | 18 => ⟨S8x512x512x1, .i32⟩
  | 19 => ⟨S8x512x512x3, .i32⟩
  | 20 => ⟨S8x512x512x32, .f32⟩
  | 21 => ⟨S_, .i32⟩
  | 22 => ⟨S8x1x1, .i32⟩
  | 23 => ⟨S8x1x1, .i1⟩
  | 24 => ⟨S_, .i32⟩
  | 25 => ⟨S8x1x1, .i32⟩
  | 26 => ⟨S8x1x1, .i32⟩
  | 27 => ⟨S8x1x1, .i32⟩
  | 28 => ⟨S_, .i32⟩
  | 29 => ⟨S8x512x512, .i32⟩
  | 30 => ⟨S8x512x512, .i1⟩
  | 31 => ⟨S_, .i32⟩
  | 32 => ⟨S8x512x512, .i32⟩
  | 33 => ⟨S8x512x512, .i32⟩
  | 34 => ⟨S8x512x512, .i32⟩
  | 35 => ⟨S_, .i32⟩
  | 36 => ⟨S8x512x512, .i32⟩
  | 37 => ⟨S8x512x512, .i1⟩
  | 38 => ⟨S_, .i32⟩
  | 39 => ⟨S8x512x512, .i32⟩
  | 40 => ⟨S8x512x512, .i32⟩
  | 41 => ⟨S8x512x512, .i32⟩
  | 42 => ⟨S8x512x512, .i32⟩
  | 43 => ⟨S8x512x512x1, .i32⟩
  | 44 => ⟨S8x512x512x1, .i32⟩
  | 45 => ⟨S8x512x512x1, .i32⟩
  | 46 => ⟨S8x512x512x3, .i32⟩
  | 47 => ⟨S8x512x512x32, .f32⟩
  | 48 => ⟨S8x512x512, .f32⟩
  | 49 => ⟨S8x512x512, .f32⟩
  | 50 => ⟨S8x512x512, .f32⟩
  | 51 => ⟨S8x512x512, .f32⟩
  | 52 => ⟨S8x512x512, .f32⟩
  | 53 => ⟨S8x512x512, .f32⟩
  | 54 => ⟨S8x512x512, .f32⟩
  | 55 => ⟨S8x512x512, .f32⟩
  | 56 => ⟨S8x512x512, .f32⟩
  | 57 => ⟨S8x512x512, .f32⟩
  | 58 => ⟨S8x512x512, .f32⟩
  | 59 => ⟨S8x512x512, .f32⟩
  | 60 => ⟨S8x512x512, .f32⟩
  | 61 => ⟨S8x512x512, .f32⟩
  | 62 => ⟨S8x512x512, .f32⟩
  | 63 => ⟨S8x512x512, .f32⟩
  | 64 => ⟨S8x512x512x32, .f32⟩
  | _ => ⟨S8x512x512x32, .f32⟩

abbrev hbmTy (i : Nat) : BufTy := match i / 128 with
  | 0 => hbmTy0_0 i
  | 1 => hbmTy0_1 i
  | _ => ⟨S8x512x512x32, .f32⟩

abbrev bufTy : (tb : Table) → Fin (tcTables nBuf tb) → BufTy
  | .hbm, ⟨i, _⟩ => hbmTy i
  | .local _ .vmem, ⟨0, _⟩ => ⟨S1x8x512x32, .f32⟩
  | .local _ .vmem, ⟨1, _⟩ => ⟨S1x8x512x32, .f32⟩
  | .local _ .vmem, ⟨2, _⟩ => ⟨S1x8x512x32, .f32⟩
  | .local _ .vmem, ⟨3, _⟩ => ⟨S1x8x512x32, .f32⟩
  | .local _ .vmem, ⟨4, _⟩ => ⟨S1x8x512x32, .f32⟩
  | .local _ .vmem, ⟨5, _⟩ => ⟨S1x8x512x32, .f32⟩
  | .local _ .vmem, ⟨6, _⟩ => ⟨S1x8x512x32, .f32⟩
  | .local _ .vmem, ⟨7, _⟩ => ⟨S1x8x512x32, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S1x8x512, .f32⟩
  | .local _ .vmem, ⟨14, _⟩ => ⟨S1x8x512, .f32⟩
  | .local _ .vmem, ⟨15, _⟩ => ⟨S1x8x512, .f32⟩
  | .local _ .vmem, ⟨16, _⟩ => ⟨S1x8x512x32, .f32⟩
  | .local _ .vmem, ⟨17, _⟩ => ⟨S1x8x512x32, .f32⟩
  | _, _ => ⟨S8x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_c_7 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_c_8 : Ref sig .tc := ⟨.hbm, 42, rfl⟩
abbrev main_c_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_c_10 : Ref sig .tc := ⟨.hbm, 50, rfl⟩
abbrev main_c_11 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v26 : Ref sig .tc := ⟨.hbm, 57, rfl⟩
abbrev main_c_12 : Ref sig .tc := ⟨.hbm, 58, rfl⟩
abbrev main_c_13 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_14 : Ref sig .tc := ⟨.hbm, 68, rfl⟩
abbrev main_v30 : Ref sig .tc := ⟨.hbm, 69, rfl⟩
abbrev main_v31 : Ref sig .tc := ⟨.hbm, 70, rfl⟩
abbrev main_c_15 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_16 : Ref sig .tc := ⟨.hbm, 75, rfl⟩
abbrev main_v35 : Ref sig .tc := ⟨.hbm, 76, rfl⟩
abbrev main_v36 : Ref sig .tc := ⟨.hbm, 77, rfl⟩
abbrev main_c_17 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_18 : Ref sig .tc := ⟨.hbm, 82, rfl⟩
abbrev main_v40 : Ref sig .tc := ⟨.hbm, 83, rfl⟩
abbrev main_v41 : Ref sig .tc := ⟨.hbm, 84, rfl⟩
abbrev main_c_19 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_20 : Ref sig .tc := ⟨.hbm, 95, rfl⟩
abbrev main_v51 : Ref sig .tc := ⟨.hbm, 96, rfl⟩
abbrev main_v52 : Ref sig .tc := ⟨.hbm, 97, rfl⟩
abbrev main_c_21 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_22 : Ref sig .tc := ⟨.hbm, 102, rfl⟩
abbrev main_v56 : Ref sig .tc := ⟨.hbm, 103, rfl⟩
abbrev main_v57 : Ref sig .tc := ⟨.hbm, 104, rfl⟩
abbrev main_c_23 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_24 : Ref sig .tc := ⟨.hbm, 109, rfl⟩
abbrev main_v61 : Ref sig .tc := ⟨.hbm, 110, rfl⟩
abbrev main_v62 : Ref sig .tc := ⟨.hbm, 111, rfl⟩
abbrev main_c_25 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_26 : Ref sig .tc := ⟨.hbm, 122, rfl⟩
abbrev main_v72 : Ref sig .tc := ⟨.hbm, 123, rfl⟩
abbrev main_v73 : Ref sig .tc := ⟨.hbm, 124, rfl⟩
abbrev main_c_27 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_28 : Ref sig .tc := ⟨.hbm, 129, rfl⟩
abbrev main_v77 : Ref sig .tc := ⟨.hbm, 130, rfl⟩
abbrev main_v78 : Ref sig .tc := ⟨.hbm, 131, rfl⟩
abbrev main_c_29 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_30 : Ref sig .tc := ⟨.hbm, 136, rfl⟩
abbrev main_v82 : Ref sig .tc := ⟨.hbm, 137, rfl⟩
abbrev main_v83 : Ref sig .tc := ⟨.hbm, 138, rfl⟩
abbrev main_c_31 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_32 : Ref sig .tc := ⟨.hbm, 149, rfl⟩
abbrev main_v93 : Ref sig .tc := ⟨.hbm, 150, rfl⟩
abbrev main_v94 : Ref sig .tc := ⟨.hbm, 151, rfl⟩
abbrev main_c_33 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_c_34 : Ref sig .tc := ⟨.hbm, 156, rfl⟩
abbrev main_v98 : Ref sig .tc := ⟨.hbm, 157, rfl⟩
abbrev main_v99 : Ref sig .tc := ⟨.hbm, 158, rfl⟩
abbrev main_c_35 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_36 : Ref sig .tc := ⟨.hbm, 163, rfl⟩
abbrev main_v103 : Ref sig .tc := ⟨.hbm, 164, rfl⟩
abbrev main_v104 : Ref sig .tc := ⟨.hbm, 165, rfl⟩
abbrev main_c_37 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  bcast_S8x512x512_S8x512x512x1_0_1_2 : S8x512x512.BroadcastsInDim S8x512x512x1 (![0, 1, 2] : Fin 3 → Fin S8x512x512x1.rank)
  concatenates_S8x512x512x1_S8x512x512x1_S8x512x512x1_S8x512x512x3_d3 : Shape.Concatenates [S8x512x512x1, S8x512x512x1, S8x512x512x1] S8x512x512x3 3
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S8x512x1 : S8x512.ShapeCasts S8x512x1
  inb_S1x8x512x32_S1x8x512x32_0_0_0_0 : ∀ a, (![0, 0, 0, 0] : Fin 4 → Nat) a + S1x8x512x32.size a ≤ S1x8x512x32.size a
  h_S1x8x512x32 : 0 < S1x8x512x32.numel
  shapeCasts_S1x8x512x32_S8x512x32 : S1x8x512x32.ShapeCasts S8x512x32
  broadcasts_S8x512x1_S8x512x32 : S8x512x1.Broadcasts S8x512x32
  shapeCasts_S8x512x32_S1x8x512x32 : S8x512x32.ShapeCasts S1x8x512x32
  gather_S8x512x512x32_S8x512x512x3_S8x512x512x32_3_012_n_n_012_3_11132_wf : GatherDims.WF S8x512x512x32 S8x512x512x3 S8x512x512x32 [3] [0, 1, 2] [] [0, 1, 2] [] 3 ![1, 1, 1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x32.size a ≤ S8x512x512x32.size a
  hwx0_0 : ∀ i : grid0.Coords, EltTy.bits .f32 = 32 ∨ (Rect.block (s := S8x512x512x32) S1x8x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512x32.size a ≤ S8x512x512x32.size a
  hwx0_1 : ∀ i : grid0.Coords, EltTy.bits .f32 = 32 ∨ (Rect.block (s := S8x512x512x32) S1x8x512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x32.size a ≤ S8x512x512x32.size a
  hwx0_2 : ∀ i : grid0.Coords, EltTy.bits .f32 = 32 ∨ (Rect.block (s := S8x512x512x32) S1x8x512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x512x32.size a ≤ S8x512x512x32.size a
  hwx0_3 : ∀ i : grid0.Coords, EltTy.bits .f32 = 32 ∨ (Rect.block (s := S8x512x512x32) S1x8x512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x512.size a ≤ S8x512x512.size a
  hwx0_4 : ∀ i : grid0.Coords, EltTy.bits .f32 = 32 ∨ (Rect.block (s := S8x512x512) S1x8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x512.size a ≤ S8x512x512.size a
  hwx0_5 : ∀ i : grid0.Coords, EltTy.bits .f32 = 32 ∨ (Rect.block (s := S8x512x512) S1x8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x512.size a ≤ S8x512x512.size a
  hwx0_6 : ∀ i : grid0.Coords, EltTy.bits .f32 = 32 ∨ (Rect.block (s := S8x512x512) S1x8x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x512.size a ≤ S8x512x512.size a
  hwx0_7 : ∀ i : grid0.Coords, EltTy.bits .f32 = 32 ∨ (Rect.block (s := S8x512x512) S1x8x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x512x32.size a ≤ S8x512x512x32.size a
  hwx0_8 : ∀ i : grid0.Coords, EltTy.bits .f32 = 32 ∨ (Rect.block (s := S8x512x512x32) S1x8x512x32.size (cc0_transform_8 i) (hinb0_8 i)).WholeWords (EltTy.packing .f32)

variable [Facts₀]

def gather_S8x512x512x32_S8x512x512x3_S8x512x512x32_3_012_n_n_012_3_11132 : GatherDims S8x512x512x32 S8x512x512x3 S8x512x512x32 where
  offsetDims := [3]
  collapsedSliceDims := [0, 1, 2]
  operandBatchingDims := []
  startIndicesBatchingDims := []
  startIndexMap := [0, 1, 2]
  indexVectorDim := 3
  sliceSizes := ![1, 1, 1, 32]
  wf := gather_S8x512x512x32_S8x512x512x3_S8x512x512x32_3_012_n_n_012_3_11132_wf

abbrev win0_0 : Pipeline.Window sig grid0 :=
  Pipeline.Window.ofSpec (Memref.whole main_v50) S1x8x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S1x8x512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v92) S1x8x512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v113) S1x8x512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v120) S1x8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v123) S1x8x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v126) S1x8x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v129) S1x8x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v130) S1x8x512x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x512x512x32 : Shape := ⟨4, ![8, 512, 512, 32]⟩
abbrev S8x512x512x2 : Shape := ⟨4, ![8, 512, 512, 2]⟩
abbrev S8x512x512x1 : Shape := ⟨4, ![8, 512, 512, 1]⟩
abbrev S8x512x512 : Shape := ⟨3, ![8, 512, 512]⟩
abbrev S_ : Shape := ⟨0, ![]⟩
abbrev S8 : Shape := ⟨1, ![8]⟩
abbrev S8x1x1 : Shape := ⟨3, ![8, 1, 1]⟩
abbrev S8x512x512x3 : Shape := ⟨4, ![8, 512, 512, 3]⟩

abbrev nBuf : Space → Nat
  | .hbm => 207
  | .vmem => 0
  | .smem => 0
  | _ => 0

abbrev hbmTy0_0 (i : Nat) : BufTy := match i % 128 with
  | 0 => ⟨S8x512x512x32, .f32⟩
  | 1 => ⟨S8x512x512x2, .f32⟩
  | 2 => ⟨S8x512x512x1, .f32⟩
  | 3 => ⟨S8x512x512, .f32⟩
  | 4 => ⟨S_, .f32⟩
  | 5 => ⟨S8x512x512, .f32⟩
  | 6 => ⟨S8x512x512, .f32⟩
  | 7 => ⟨S_, .f32⟩
  | 8 => ⟨S8x512x512, .f32⟩
  | 9 => ⟨S8x512x512, .f32⟩
  | 10 => ⟨S_, .f32⟩
  | 11 => ⟨S8x512x512, .f32⟩
  | 12 => ⟨S8x512x512, .f32⟩
  | 13 => ⟨S8x512x512x1, .f32⟩
  | 14 => ⟨S8x512x512, .f32⟩
  | 15 => ⟨S_, .f32⟩
  | 16 => ⟨S8x512x512, .f32⟩
  | 17 => ⟨S8x512x512, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S8x512x512, .f32⟩
  | 25 => ⟨S8x512x512, .i32⟩
  | 26 => ⟨S_, .i32⟩
  | 27 => ⟨S8x512x512, .i32⟩
  | 28 => ⟨S8x512x512, .i32⟩
  | 29 => ⟨S8x512x512, .f32⟩
  | 30 => ⟨S8x512x512, .i32⟩
  | 31 => ⟨S_, .i32⟩
  | 32 => ⟨S8x512x512, .i32⟩
  | 33 => ⟨S8x512x512, .i32⟩
  | 34 => ⟨S_, .i32⟩
  | 35 => ⟨S_, .i32⟩
  | 36 => ⟨S_, .i32⟩
  | 37 => ⟨S8x512x512, .i32⟩
  | 38 => ⟨S8x512x512, .i32⟩
  | 39 => ⟨S_, .i32⟩
  | 40 => ⟨S8x512x512, .i32⟩
  | 41 => ⟨S8x512x512, .i32⟩
  | 42 => ⟨S_, .i32⟩
  | 43 => ⟨S_, .i32⟩
  | 44 => ⟨S_, .i32⟩
  | 45 => ⟨S8x512x512, .i32⟩
  | 46 => ⟨S8x512x512, .i32⟩
  | 47 => ⟨S_, .i32⟩
  | 48 => ⟨S8x512x512, .i32⟩
  | 49 => ⟨S8x512x512, .i32⟩
  | 50 => ⟨S_, .i32⟩
  | 51 => ⟨S_, .i32⟩
  | 52 => ⟨S_, .i32⟩
  | 53 => ⟨S8x512x512, .i32⟩
  | 54 => ⟨S8x512x512, .i32⟩
  | 55 => ⟨S_, .i32⟩
  | 56 => ⟨S8x512x512, .i32⟩
  | 57 => ⟨S8x512x512, .i32⟩
  | 58 => ⟨S_, .i32⟩
  | 59 => ⟨S_, .i32⟩
  | 60 => ⟨S_, .i32⟩
  | 61 => ⟨S8x512x512, .i32⟩
  | 62 => ⟨S8x512x512, .i32⟩
  | 63 => ⟨S_, .i32⟩
  | 64 => ⟨S8x512x512, .i32⟩
  | 65 => ⟨S8x512x512, .i32⟩
  | 66 => ⟨S8, .i32⟩
  | 67 => ⟨S8x1x1, .i32⟩
  | 68 => ⟨S_, .i32⟩
  | 69 => ⟨S8x1x1, .i32⟩
  | 70 => ⟨S8x1x1, .i1⟩
  | 71 => ⟨S_, .i32⟩
  | 72 => ⟨S8x1x1, .i32⟩
  | 73 => ⟨S8x1x1, .i32⟩
  | 74 => ⟨S8x1x1, .i32⟩
  | 75 => ⟨S_, .i32⟩
  | 76 => ⟨S8x512x512, .i32⟩
  | 77 => ⟨S8x512x512, .i1⟩
  | 78 => ⟨S_, .i32⟩
  | 79 => ⟨S8x512x512, .i32⟩
  | 80 => ⟨S8x512x512, .i32⟩
  | 81 => ⟨S8x512x512, .i32⟩
  | 82 => ⟨S_, .i32⟩
  | 83 => ⟨S8x512x512, .i32⟩
  | 84 => ⟨S8x512x512, .i1⟩
  | 85 => ⟨S_, .i32⟩
  | 86 => ⟨S8x512x512, .i32⟩
  | 87 => ⟨S8x512x512, .i32⟩
  | 88 => ⟨S8x512x512, .i32⟩
  | 89 => ⟨S8x512x512, .i32⟩
  | 90 => ⟨S8x512x512x1, .i32⟩
  | 91 => ⟨S8x512x512x1, .i32⟩
  | 92 => ⟨S8x512x512x1, .i32⟩
  | 93 => ⟨S8x512x512x3, .i32⟩
  | 94 => ⟨S8x512x512x32, .f32⟩
  | 95 => ⟨S_, .i32⟩
  | 96 => ⟨S8x1x1, .i32⟩
  | 97 => ⟨S8x1x1, .i1⟩
  | 98 => ⟨S_, .i32⟩
  | 99 => ⟨S8x1x1, .i32⟩
  | 100 => ⟨S8x1x1, .i32⟩
  | 101 => ⟨S8x1x1, .i32⟩
  | 102 => ⟨S_, .i32⟩
  | 103 => ⟨S8x512x512, .i32⟩
  | 104 => ⟨S8x512x512, .i1⟩
  | 105 => ⟨S_, .i32⟩
  | 106 => ⟨S8x512x512, .i32⟩
  | 107 => ⟨S8x512x512, .i32⟩
  | 108 => ⟨S8x512x512, .i32⟩
  | 109 => ⟨S_, .i32⟩
  | 110 => ⟨S8x512x512, .i32⟩
  | 111 => ⟨S8x512x512, .i1⟩
  | 112 => ⟨S_, .i32⟩
  | 113 => ⟨S8x512x512, .i32⟩
  | 114 => ⟨S8x512x512, .i32⟩
  | 115 => ⟨S8x512x512, .i32⟩
  | 116 => ⟨S8x512x512, .i32⟩
  | 117 => ⟨S8x512x512x1, .i32⟩
  | 118 => ⟨S8x512x512x1, .i32⟩
  | 119 => ⟨S8x512x512x1, .i32⟩
  | 120 => ⟨S8x512x512x3, .i32⟩
  | 121 => ⟨S8x512x512x32, .f32⟩
  | 122 => ⟨S_, .i32⟩
  | 123 => ⟨S8x1x1, .i32⟩
  | 124 => ⟨S8x1x1, .i1⟩
  | 125 => ⟨S_, .i32⟩
  | 126 => ⟨S8x1x1, .i32⟩
  | 127 => ⟨S8x1x1, .i32⟩
  | _ => ⟨S8x512x512x32, .f32⟩

abbrev hbmTy0_1 (i : Nat) : BufTy := match i % 128 with
  | 0 => ⟨S8x1x1, .i32⟩
  | 1 => ⟨S_, .i32⟩
  | 2 => ⟨S8x512x512, .i32⟩
  | 3 => ⟨S8x512x512, .i1⟩
  | 4 => ⟨S_, .i32⟩
  | 5 => ⟨S8x512x512, .i32⟩
  | 6 => ⟨S8x512x512, .i32⟩
  | 7 => ⟨S8x512x512, .i32⟩
  | 8 => ⟨S_, .i32⟩
  | 9 => ⟨S8x512x512, .i32⟩
  | 10 => ⟨S8x512x512, .i1⟩
  | 11 => ⟨S_, .i32⟩
  | 12 => ⟨S8x512x512, .i32⟩
  | 13 => ⟨S8x512x512, .i32⟩
  | 14 => ⟨S8x512x512, .i32⟩
  | 15 => ⟨S8x512x512, .i32⟩
  | 16 => ⟨S8x512x512x1, .i32⟩
  | 17 => ⟨S8x512x512x1, .i32⟩
  | 18 => ⟨S8x512x512x1, .i32⟩
  | 19 => ⟨S8x512x512x3, .i32⟩
  | 20 => ⟨S8x512x512x32, .f32⟩
  | 21 => ⟨S_, .i32⟩
  | 22 => ⟨S8x1x1, .i32⟩
  | 23 => ⟨S8x1x1, .i1⟩
  | 24 => ⟨S_, .i32⟩
  | 25 => ⟨S8x1x1, .i32⟩
  | 26 => ⟨S8x1x1, .i32⟩
  | 27 => ⟨S8x1x1, .i32⟩
  | 28 => ⟨S_, .i32⟩
  | 29 => ⟨S8x512x512, .i32⟩
  | 30 => ⟨S8x512x512, .i1⟩
  | 31 => ⟨S_, .i32⟩
  | 32 => ⟨S8x512x512, .i32⟩
  | 33 => ⟨S8x512x512, .i32⟩
  | 34 => ⟨S8x512x512, .i32⟩
  | 35 => ⟨S_, .i32⟩
  | 36 => ⟨S8x512x512, .i32⟩
  | 37 => ⟨S8x512x512, .i1⟩
  | 38 => ⟨S_, .i32⟩
  | 39 => ⟨S8x512x512, .i32⟩
  | 40 => ⟨S8x512x512, .i32⟩
  | 41 => ⟨S8x512x512, .i32⟩
  | 42 => ⟨S8x512x512, .i32⟩
  | 43 => ⟨S8x512x512x1, .i32⟩
  | 44 => ⟨S8x512x512x1, .i32⟩
  | 45 => ⟨S8x512x512x1, .i32⟩
  | 46 => ⟨S8x512x512x3, .i32⟩
  | 47 => ⟨S8x512x512x32, .f32⟩
  | 48 => ⟨S8x512x512, .f32⟩
  | 49 => ⟨S8x512x512, .f32⟩
  | 50 => ⟨S8x512x512, .f32⟩
  | 51 => ⟨S8x512x512, .f32⟩
  | 52 => ⟨S8x512x512, .f32⟩
  | 53 => ⟨S8x512x512, .f32⟩
  | 54 => ⟨S8x512x512, .f32⟩
  | 55 => ⟨S8x512x512x1, .f32⟩
  | 56 => ⟨S8x512x512, .f32⟩
  | 57 => ⟨S8x512x512, .f32⟩
  | 58 => ⟨S8x512x512, .f32⟩
  | 59 => ⟨S8x512x512x1, .f32⟩
  | 60 => ⟨S8x512x512, .f32⟩
  | 61 => ⟨S8x512x512, .f32⟩
  | 62 => ⟨S8x512x512, .f32⟩
  | 63 => ⟨S8x512x512x1, .f32⟩
  | 64 => ⟨S8x512x512, .f32⟩
  | 65 => ⟨S8x512x512, .f32⟩
  | 66 => ⟨S8x512x512, .f32⟩
  | 67 => ⟨S8x512x512x1, .f32⟩
  | 68 => ⟨S8x512x512x32, .f32⟩
  | 69 => ⟨S8x512x512x32, .f32⟩
  | 70 => ⟨S8x512x512x32, .f32⟩
  | 71 => ⟨S8x512x512x32, .f32⟩
  | 72 => ⟨S8x512x512x32, .f32⟩
  | 73 => ⟨S8x512x512x32, .f32⟩
  | 74 => ⟨S8x512x512x32, .f32⟩
  | 75 => ⟨S8x512x512x32, .f32⟩
  | 76 => ⟨S8x512x512x32, .f32⟩
  | 77 => ⟨S8x512x512x32, .f32⟩
  | 78 => ⟨S8x512x512x32, .f32⟩
  | _ => ⟨S8x512x512x32, .f32⟩

abbrev hbmTy (i : Nat) : BufTy := match i / 128 with
  | 0 => hbmTy0_0 i
  | 1 => hbmTy0_1 i
  | _ => ⟨S8x512x512x32, .f32⟩

abbrev bufTy : (tb : Table) → Fin (tcTables nBuf tb) → BufTy
  | .hbm, ⟨i, _⟩ => hbmTy i
  | _, _ => ⟨S8x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_c_7 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_c_8 : Ref sig .tc := ⟨.hbm, 42, rfl⟩
abbrev main_c_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_c_10 : Ref sig .tc := ⟨.hbm, 50, rfl⟩
abbrev main_c_11 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v26 : Ref sig .tc := ⟨.hbm, 57, rfl⟩
abbrev main_c_12 : Ref sig .tc := ⟨.hbm, 58, rfl⟩
abbrev main_c_13 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_14 : Ref sig .tc := ⟨.hbm, 68, rfl⟩
abbrev main_v30 : Ref sig .tc := ⟨.hbm, 69, rfl⟩
abbrev main_v31 : Ref sig .tc := ⟨.hbm, 70, rfl⟩
abbrev main_c_15 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_16 : Ref sig .tc := ⟨.hbm, 75, rfl⟩
abbrev main_v35 : Ref sig .tc := ⟨.hbm, 76, rfl⟩
abbrev main_v36 : Ref sig .tc := ⟨.hbm, 77, rfl⟩
abbrev main_c_17 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_18 : Ref sig .tc := ⟨.hbm, 82, rfl⟩
abbrev main_v40 : Ref sig .tc := ⟨.hbm, 83, rfl⟩
abbrev main_v41 : Ref sig .tc := ⟨.hbm, 84, rfl⟩
abbrev main_c_19 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_20 : Ref sig .tc := ⟨.hbm, 95, rfl⟩
abbrev main_v51 : Ref sig .tc := ⟨.hbm, 96, rfl⟩
abbrev main_v52 : Ref sig .tc := ⟨.hbm, 97, rfl⟩
abbrev main_c_21 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_22 : Ref sig .tc := ⟨.hbm, 102, rfl⟩
abbrev main_v56 : Ref sig .tc := ⟨.hbm, 103, rfl⟩
abbrev main_v57 : Ref sig .tc := ⟨.hbm, 104, rfl⟩
abbrev main_c_23 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_24 : Ref sig .tc := ⟨.hbm, 109, rfl⟩
abbrev main_v61 : Ref sig .tc := ⟨.hbm, 110, rfl⟩
abbrev main_v62 : Ref sig .tc := ⟨.hbm, 111, rfl⟩
abbrev main_c_25 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_26 : Ref sig .tc := ⟨.hbm, 122, rfl⟩
abbrev main_v72 : Ref sig .tc := ⟨.hbm, 123, rfl⟩
abbrev main_v73 : Ref sig .tc := ⟨.hbm, 124, rfl⟩
abbrev main_c_27 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_28 : Ref sig .tc := ⟨.hbm, 129, rfl⟩
abbrev main_v77 : Ref sig .tc := ⟨.hbm, 130, rfl⟩
abbrev main_v78 : Ref sig .tc := ⟨.hbm, 131, rfl⟩
abbrev main_c_29 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_30 : Ref sig .tc := ⟨.hbm, 136, rfl⟩
abbrev main_v82 : Ref sig .tc := ⟨.hbm, 137, rfl⟩
abbrev main_v83 : Ref sig .tc := ⟨.hbm, 138, rfl⟩
abbrev main_c_31 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_32 : Ref sig .tc := ⟨.hbm, 149, rfl⟩
abbrev main_v93 : Ref sig .tc := ⟨.hbm, 150, rfl⟩
abbrev main_v94 : Ref sig .tc := ⟨.hbm, 151, rfl⟩
abbrev main_c_33 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_c_34 : Ref sig .tc := ⟨.hbm, 156, rfl⟩
abbrev main_v98 : Ref sig .tc := ⟨.hbm, 157, rfl⟩
abbrev main_v99 : Ref sig .tc := ⟨.hbm, 158, rfl⟩
abbrev main_c_35 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_36 : Ref sig .tc := ⟨.hbm, 163, rfl⟩
abbrev main_v103 : Ref sig .tc := ⟨.hbm, 164, rfl⟩
abbrev main_v104 : Ref sig .tc := ⟨.hbm, 165, rfl⟩
abbrev main_c_37 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩

abbrev nD : Nat := 1
abbrev τ : Topo := Topo.v7x

variable {F : FTy → Type} [FloatOps F]

class Facts₀ : Prop where
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  bcast_S8x512x512_S8x512x512x1_0_1_2 : S8x512x512.BroadcastsInDim S8x512x512x1 (![0, 1, 2] : Fin 3 → Fin S8x512x512x1.rank)
  concatenates_S8x512x512x1_S8x512x512x1_S8x512x512x1_S8x512x512x3_d3 : Shape.Concatenates [S8x512x512x1, S8x512x512x1, S8x512x512x1] S8x512x512x3 3
  bcast_S8x512x512x1_S8x512x512x32_0_1_2_3 : S8x512x512x1.BroadcastsInDim S8x512x512x32 (![0, 1, 2, 3] : Fin 4 → Fin S8x512x512x32.rank)
  gather_S8x512x512x32_S8x512x512x3_S8x512x512x32_3_012_n_n_012_3_11132_wf : GatherDims.WF S8x512x512x32 S8x512x512x3 S8x512x512x32 [3] [0, 1, 2] [] [0, 1, 2] [] 3 ![1, 1, 1, 32]

variable [Facts₀]

def gather_S8x512x512x32_S8x512x512x3_S8x512x512x32_3_012_n_n_012_3_11132 : GatherDims S8x512x512x32 S8x512x512x3 S8x512x512x32 where
  offsetDims := [3]
  collapsedSliceDims := [0, 1, 2]
  operandBatchingDims := []
  startIndicesBatchingDims := []
  startIndexMap := [0, 1, 2]
  indexVectorDim := 3
  sliceSizes := ![1, 1, 1, 32]
  wf := gather_S8x512x512x32_S8x512x512x3_S8x512x512x32_3_012_n_n_012_3_11132_wf

class Facts : Prop extends Facts₀ where

variable [Facts]
-- ==== Proof.WordEntry.lean ====
/-
  The program up to its one region, and the region's inputs.

  Before the region the program runs host operations only: the pixel coordinates x = (g₀ + 1) · 511 / 2 and
  y = (g₁ + 1) · 511 / 2 of every grid entry, their floors clipped into [0, 511], the four corner images gathered from
  the image at (batch, y-corner, x-corner), and the four products of the distances to the opposite corners. None of
  these writes either argument array, so the region finds both as they were launched; and each of the region's eight
  input windows, cut into blocks of eight image rows of one batch entry, holds at every grid point the block of its
  array that the point's index names.
-/
import proofs.«154991_j86775519248465_2_alg».proof.Proof.Gen.Kernel.Launch
import proofs.«154991_j86775519248465_2_alg».proof.Proof.Gen.Kernel.Skeleton
import proofs.«154991_j86775519248465_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffers after all the host operations that precede the region. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-! Every host operation writes a buffer that exists from the launch on: none allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program is its host operations, in order, followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation writes the image: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes the sampling grid: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window is fetched at every point, its blocks tile its array and it is never idle: whatever proof data
    has the region-entry arrays and leaves an input's block in place finds the block in the current staging buffer. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- A run that ends with every array no window stages as the region found it ends with both argument arrays as they
    were launched: no window stages either, and no host operation wrote either. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

end Cert.Kernel.Region

end
-- ==== Proof.WordBody.lean ====
/-
  The region's body at one grid point.

  The body reads the four weight blocks [1, 8, 512] and the four corner-image blocks [1, 8, 512, 32] of the point, spreads
  each weight over the 32 channels of its pixel, and stores ((wa · Ia + wb · Ib) + wc · Ic) + wd · Id over the whole
  output block. It also reads the output block once before storing it and uses nothing of what it read, so the block may
  hold anything when the body starts.
-/
import proofs.«154991_j86775519248465_2_alg».proof.Proof.WordEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a weight block. -/
abbrev wholeW : Rect S1x8x512 := Rect.unit (s := S1x8x512) ![0, 0, 0] S1x8x512.size inb_S1x8x512_S1x8x512_0_0_0
/-- The whole of an image block. -/
abbrev wholeI : Rect S1x8x512x32 := Rect.unit (s := S1x8x512x32) ![0, 0, 0, 0] S1x8x512x32.size inb_S1x8x512x32_S1x8x512x32_0_0_0_0

/-- The output block after the body, from the eight input blocks: its one store, of the weighted sum of the four image
    blocks, over the whole block. -/
def out8 (x0 x1 x2 x3 : Vec F S1x8x512x32 .f32) (x4 x5 x6 x7 : Vec F S1x8x512 .f32) : Vec F S1x8x512x32 .f32 :=
  View.canon [⟨wholeI, k0_pay1 (k0_pay2 (View.ld x4 wholeW) (View.ld x5 wholeW) (View.ld x6 wholeW) (View.ld x0 wholeI) (View.ld x1 wholeI) (View.ld x2 wholeI))
    (k0_pay3 (View.ld x7 wholeW) (View.ld x3 wholeI))⟩]

/-- The one store covers the block. -/
theorem cover8 (p0 : Vec F S1x8x512x32 .f32) (y : S1x8x512x32.Idx) :
    ∃ pc ∈ ([⟨wholeI, p0⟩] : List (View.Piece (Elt F) S1x8x512x32 .f32)), y ∈ pc.1.set :=
  View.cover_of_tiled [⟨wholeI, p0⟩] S1x8x512x32.size (by rfl) y

set_option maxHeartbeats 4000000 in
/-- The body on whole staging buffers, the inputs' at contents `x0 … x7` and the output's at anything, runs to the
    continuation with the inputs' buffers as they were and the output's at `out8` of the inputs. -/
theorem sound_kernel (c : Dev nD) (E : Set ℕ) (i : grid0.Coords) (arg2 : Memref sig .tc .vmem S1x8x512x32 .f32) (harg2 : arg2.IsWhole) (arg3 : Memref sig .tc .vmem S1x8x512x32 .f32) (harg3 : arg3.IsWhole) (arg4 : Memref sig .tc .vmem S1x8x512x32 .f32) (harg4 : arg4.IsWhole) (arg5 : Memref sig .tc .vmem S1x8x512x32 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x512 .f32) (harg9 : arg9.IsWhole) (arg10 : Memref sig .tc .vmem S1x8x512x32 .f32) (harg10 : arg10.IsWhole)
    (x0 x1 x2 x3 : Vec F S1x8x512x32 .f32) (x4 x5 x6 x7 : Vec F S1x8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out8 x0 x1 x2 x3 x4 x5 x6 x7)) -∗ K ⟨⟩))
      ⊢ wp frame (wpE (defs₀ (F := F)) Variants.none c none) E (cc0__wsum_kernel i arg2 harg2 arg3 harg3 arg4 harg4 arg5 harg5 arg6 harg6 arg7 harg7 arg8 harg8 arg9 harg9 arg10 harg10) K := by
  simp only [cc0__wsum_kernel_eq_skeleton]; unfold cc0__wsum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover8 _)

end Cert.Kernel.Region

end
-- ==== Proof.WordRun.lean ====
/-
  The region's run: what each staging buffer holds after the body at each grid point, the body's obligation at a generic
  point, and from them the whole program's run — it terminates, nothing faults, every window's array ends at what its
  write-backs make of it and every other array as the region found it.
-/
import proofs.«154991_j86775519248465_2_alg».proof.Proof.WordBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at point `t` each
    input's buffer still at its block and the output's at the weighted sum of the point's input blocks; the invariant
    is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, and every final state
    has every window's array at what the proof data's write-backs make of it and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves both argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Region

end
-- ==== Proof.IdealEntry.lean ====
/-
  The program up to its one region, and the region's inputs.

  Before the region the program runs host operations only: the pixel coordinates x = (g₀ + 1) · 511 / 2 and
  y = (g₁ + 1) · 511 / 2 of every grid entry, their floors clipped into [0, 511], the four corner images gathered from
  the image at (batch, y-corner, x-corner), and the four products of the distances to the opposite corners. None of
  these writes either argument array, so the region finds both as they were launched; and each of the region's eight
  input windows, cut into blocks of eight image rows of one batch entry, holds at every grid point the block of its
  array that the point's index names.
-/
import proofs.«154991_j86775519248465_2_alg».proof.Proof.Gen.KernelIdeal.Launch
import proofs.«154991_j86775519248465_2_alg».proof.Proof.Gen.KernelIdeal.Skeleton
import proofs.«154991_j86775519248465_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffers after all the host operations that precede the region. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-! Every host operation writes a buffer that exists from the launch on: none allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program is its host operations, in order, followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation writes the image: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes the sampling grid: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window is fetched at every point, its blocks tile its array and it is never idle: whatever proof data
    has the region-entry arrays and leaves an input's block in place finds the block in the current staging buffer. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- A run that ends with every array no window stages as the region found it ends with both argument arrays as they
    were launched: no window stages either, and no host operation wrote either. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

end Cert.KernelIdeal.Region

end
-- ==== Proof.IdealBody.lean ====
/-
  The region's body at one grid point.

  The body reads the four weight blocks [1, 8, 512] and the four corner-image blocks [1, 8, 512, 32] of the point, spreads
  each weight over the 32 channels of its pixel, and stores ((wa · Ia + wb · Ib) + wc · Ic) + wd · Id over the whole
  output block. It also reads the output block once before storing it and uses nothing of what it read, so the block may
  hold anything when the body starts.
-/
import proofs.«154991_j86775519248465_2_alg».proof.Proof.IdealEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a weight block. -/
abbrev wholeW : Rect S1x8x512 := Rect.unit (s := S1x8x512) ![0, 0, 0] S1x8x512.size inb_S1x8x512_S1x8x512_0_0_0
/-- The whole of an image block. -/
abbrev wholeI : Rect S1x8x512x32 := Rect.unit (s := S1x8x512x32) ![0, 0, 0, 0] S1x8x512x32.size inb_S1x8x512x32_S1x8x512x32_0_0_0_0

/-- The output block after the body, from the eight input blocks: its one store, of the weighted sum of the four image
    blocks, over the whole block. -/
def out8 (x0 x1 x2 x3 : Vec F S1x8x512x32 .f32) (x4 x5 x6 x7 : Vec F S1x8x512 .f32) : Vec F S1x8x512x32 .f32 :=
  View.canon [⟨wholeI, k0_pay1 (k0_pay2 (View.ld x4 wholeW) (View.ld x5 wholeW) (View.ld x6 wholeW) (View.ld x0 wholeI) (View.ld x1 wholeI) (View.ld x2 wholeI))
    (k0_pay3 (View.ld x7 wholeW) (View.ld x3 wholeI))⟩]

/-- The one store covers the block. -/
theorem cover8 (p0 : Vec F S1x8x512x32 .f32) (y : S1x8x512x32.Idx) :
    ∃ pc ∈ ([⟨wholeI, p0⟩] : List (View.Piece (Elt F) S1x8x512x32 .f32)), y ∈ pc.1.set :=
  View.cover_of_tiled [⟨wholeI, p0⟩] S1x8x512x32.size (by rfl) y

set_option maxHeartbeats 4000000 in
/-- The body on whole staging buffers, the inputs' at contents `x0 … x7` and the output's at anything, runs to the
    continuation with the inputs' buffers as they were and the output's at `out8` of the inputs. -/
theorem sound_kernel (c : Dev nD) (E : Set ℕ) (i : grid0.Coords) (arg2 : Memref sig .tc .vmem S1x8x512x32 .f32) (harg2 : arg2.IsWhole) (arg3 : Memref sig .tc .vmem S1x8x512x32 .f32) (harg3 : arg3.IsWhole) (arg4 : Memref sig .tc .vmem S1x8x512x32 .f32) (harg4 : arg4.IsWhole) (arg5 : Memref sig .tc .vmem S1x8x512x32 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x512 .f32) (harg9 : arg9.IsWhole) (arg10 : Memref sig .tc .vmem S1x8x512x32 .f32) (harg10 : arg10.IsWhole)
    (x0 x1 x2 x3 : Vec F S1x8x512x32 .f32) (x4 x5 x6 x7 : Vec F S1x8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out8 x0 x1 x2 x3 x4 x5 x6 x7)) -∗ K ⟨⟩))
      ⊢ wp frame (wpE (defs₀ (F := F)) Variants.none c none) E (cc0__wsum_kernel i arg2 harg2 arg3 harg3 arg4 harg4 arg5 harg5 arg6 harg6 arg7 harg7 arg8 harg8 arg9 harg9 arg10 harg10) K := by
  simp only [cc0__wsum_kernel_eq_skeleton]; unfold cc0__wsum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover8 _)

end Cert.KernelIdeal.Region

end
-- ==== Proof.IdealRun.lean ====
/-
  The region's run: what each staging buffer holds after the body at each grid point, the body's obligation at a generic
  point, and from them the whole program's run — it terminates, nothing faults, every window's array ends at what its
  write-backs make of it and every other array as the region found it.
-/
import proofs.«154991_j86775519248465_2_alg».proof.Proof.IdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at point `t` each
    input's buffer still at its block and the output's at the weighted sum of the point's input blocks; the invariant
    is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, and every final state
    has every window's array at what the proof data's write-backs make of it and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves both argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Region

end
-- ==== Proof.IdealIndex.lean ====
/-
  The grid is (batch, row block): point t has coordinates (t / 64, t % 64), handles batch entry b = t / 64 and image rows
  8k … 8k + 7 for k = t % 64. Every window's index map sends the point to block (b, k, 0[, 0]) — the eight inputs' and the
  output's are one text — and the 8 × 64 output blocks [1, 8, 512, 32] tile the output array [8, 512, 512, 32]: entry
  (b, h, w, ch) lies in the block of the point b · 64 + h / 8.
-/
import proofs.«154991_j86775519248465_2_alg».proof.Proof.IdealRun

set_option maxRecDepth 16384

noncomputable section

namespace Cert.KernelIdeal.Region

open Cert.KernelIdeal Cert.KernelIdeal.Gen
open Idealize.ShloMosaic Idealize.ShloMosaic.TcCoe
open Idealize.SL Idealize.SL.Sem
open Idealize.ShloMosaic.Pipeline (Dat Cfg Window)

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- The output window's block index at point `t`, in closed form: the point's two coordinates, then zeros. A coordinate is
    below 2³², so its round trip through a 32-bit word is itself. -/
theorem index_out (t : Fin cfg0.N) :
    win0_8.index t = ![(grid0.coords t 0).val, (grid0.coords t 1).val, 0, 0] := by
  have b0 : (grid0.coords t 0).val < 8 := (grid0.coords t 0).isLt
  have b1 : (grid0.coords t 1).val < 64 := (grid0.coords t 1).isLt
  funext a
  match a with
  | ⟨0, _⟩ =>
    show (BitVec.ofNat 32 (grid0.coords t 0).val).toNat = (grid0.coords t 0).val
    rw [BitVec.toNat_ofNat]; exact Nat.mod_eq_of_lt (by omega)
  | ⟨1, _⟩ =>
    show (BitVec.ofNat 32 (grid0.coords t 1).val).toNat = (grid0.coords t 1).val
    rw [BitVec.toNat_ofNat]; exact Nat.mod_eq_of_lt (by omega)
  | ⟨2, _⟩ => rfl
  | ⟨3, _⟩ => rfl

/-- Every input window's block index is the output window's on the axes they share (the index maps are one text), and the
    output's block index is (batch ≤ 7, row block ≤ 63, 0, 0). -/
theorem index_facts (t : Fin cfg0.N) : win0_0.index t (0 : Fin 4) = win0_8.index t (0 : Fin 4)
    ∧ win0_0.index t (1 : Fin 4) = win0_8.index t (1 : Fin 4)
    ∧ win0_0.index t (2 : Fin 4) = win0_8.index t (2 : Fin 4)
    ∧ win0_0.index t (3 : Fin 4) = win0_8.index t (3 : Fin 4)
    ∧ win0_1.index t (0 : Fin 4) = win0_8.index t (0 : Fin 4)
    ∧ win0_1.index t (1 : Fin 4) = win0_8.index t (1 : Fin 4)
    ∧ win0_1.index t (2 : Fin 4) = win0_8.index t (2 : Fin 4)
    ∧ win0_1.index t (3 : Fin 4) = win0_8.index t (3 : Fin 4)
    ∧ win0_2.index t (0 : Fin 4) = win0_8.index t (0 : Fin 4)
    ∧ win0_2.index t (1 : Fin 4) = win0_8.index t (1 : Fin 4)
    ∧ win0_2.index t (2 : Fin 4) = win0_8.index t (2 : Fin 4)
    ∧ win0_2.index t (3 : Fin 4) = win0_8.index t (3 : Fin 4)
    ∧ win0_3.index t (0 : Fin 4) = win0_8.index t (0 : Fin 4)
    ∧ win0_3.index t (1 : Fin 4) = win0_8.index t (1 : Fin 4)
    ∧ win0_3.index t (2 : Fin 4) = win0_8.index t (2 : Fin 4)
    ∧ win0_3.index t (3 : Fin 4) = win0_8.index t (3 : Fin 4)
    ∧ win0_4.index t (0 : Fin 3) = win0_8.index t (0 : Fin 4)
    ∧ win0_4.index t (1 : Fin 3) = win0_8.index t (1 : Fin 4)
    ∧ win0_4.index t (2 : Fin 3) = win0_8.index t (2 : Fin 4)
    ∧ win0_5.index t (0 : Fin 3) = win0_8.index t (0 : Fin 4)
    ∧ win0_5.index t (1 : Fin 3) = win0_8.index t (1 : Fin 4)
    ∧ win0_5.index t (2 : Fin 3) = win0_8.index t (2 : Fin 4)
    ∧ win0_6.index t (0 : Fin 3) = win0_8.index t (0 : Fin 4)
    ∧ win0_6.index t (1 : Fin 3) = win0_8.index t (1 : Fin 4)
    ∧ win0_6.index t (2 : Fin 3) = win0_8.index t (2 : Fin 4)
    ∧ win0_7.index t (0 : Fin 3) = win0_8.index t (0 : Fin 4)
    ∧ win0_7.index t (1 : Fin 3) = win0_8.index t (1 : Fin 4)
    ∧ win0_7.index t (2 : Fin 3) = win0_8.index t (2 : Fin 4)
    ∧ win0_8.index t (0 : Fin 4) ≤ 7
    ∧ win0_8.index t (1 : Fin 4) ≤ 63
    ∧ win0_8.index t (2 : Fin 4) = 0
    ∧ win0_8.index t (3 : Fin 4) = 0 := by
  have h := index_out t
  have b0 : (grid0.coords t 0).val < 8 := (grid0.coords t 0).isLt
  have b1 : (grid0.coords t 1).val < 64 := (grid0.coords t 1).isLt
  have q0 : win0_8.index t (0 : Fin 4) = (grid0.coords t 0).val := congrFun h 0
  have q1 : win0_8.index t (1 : Fin 4) = (grid0.coords t 1).val := congrFun h 1
  have q2 : win0_8.index t (2 : Fin 4) = 0 := congrFun h 2
  have q3 : win0_8.index t (3 : Fin 4) = 0 := congrFun h 3
  refine ⟨rfl, rfl, rfl, rfl, rfl, rfl, rfl, rfl, rfl, rfl, rfl, rfl, rfl, rfl, rfl, rfl, rfl, rfl, rfl, rfl, rfl, rfl, rfl, rfl, rfl, rfl, rfl, rfl, ?_, ?_, q2, q3⟩
  · omega
  · omega

/-- An index of the output array is in point `t`'s block iff each coordinate is in the block's range on its axis. -/
theorem mem_block (t : Fin cfg0.N) (i : S8x512x512x32.Idx) :
    i ∈ ((cfg0.win 8).blk t).view.set ↔ ∀ a : Fin 4, win0_8.index t a * S1x8x512x32.size a ≤ (i a).val ∧ (i a).val < win0_8.index t a * S1x8x512x32.size a + S1x8x512x32.size a := by
  show i ∈ ((View.whole main_v130).slice (win0_8.rect t)).set ↔ _
  rw [View.set_slice_whole, Rect.mem_set_unit]
  exact Iff.rfl

/-- The blocks cover the output array: entry (b, h, w, ch) is in the block of the point b · 64 + h / 8, whose coordinates
    are (b, h / 8). -/
theorem covered (i : S8x512x512x32.Idx) : ∃ t : Fin cfg0.N, (cfg0.win 8).flush t = true ∧ i ∈ ((cfg0.win 8).blk t).view.set := by
  have hi0 : (i 0).val < 8 := (i 0).isLt
  have hi1 : (i 1).val < 512 := (i 1).isLt
  have hi2 : (i 2).val < 512 := (i 2).isLt
  have hi3 : (i 3).val < 32 := (i 3).isLt
  have hN : grid0.N = 512 := N_0
  let t : Fin cfg0.N := ⟨(i 0).val * 64 + (i 1).val / 8, by show _ < grid0.N; omega⟩
  have c0 : (grid0.coords t 0).val = (i 0).val := by
    show ((i 0).val * 64 + (i 1).val / 8) / 64 % 8 = (i 0).val
    omega
  have c1 : (grid0.coords t 1).val = (i 1).val / 8 := by
    show ((i 0).val * 64 + (i 1).val / 8) / 1 % 64 = (i 1).val / 8
    omega
  have h := index_out t
  have q0 : win0_8.index t (0 : Fin 4) = (i 0).val := (congrFun h 0).trans c0
  have q1 : win0_8.index t (1 : Fin 4) = (i 1).val / 8 := (congrFun h 1).trans c1
  have q2 : win0_8.index t (2 : Fin 4) = 0 := congrFun h 2
  have q3 : win0_8.index t (3 : Fin 4) = 0 := congrFun h 3
  refine ⟨t, flush0_8 t, ?_⟩
  rw [mem_block]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 8 ≤ (i 1).val ∧ (i 1).val < win0_8.index t (1 : Fin 4) * 8 + 8; omega
  | ⟨2, _⟩ => show win0_8.index t (2 : Fin 4) * 512 ≤ (i 2).val ∧ (i 2).val < win0_8.index t (2 : Fin 4) * 512 + 512; omega
  | ⟨3, _⟩ => show win0_8.index t (3 : Fin 4) * 32 ≤ (i 3).val ∧ (i 3).val < win0_8.index t (3 : Fin 4) * 32 + 32; omega

end Cert.KernelIdeal.Region

end
-- ==== Proof.LibLayoutRank3.lean ====
/-
  Three re-layings between rank 2 and rank 3, read at an index given by its coordinates.

  A product `p[i, j, l] = u[i, j] · v[j, l]` over a common three-axis index set is formed by giving `u` a trailing axis of
  extent one and `v` a leading axis of extent one, then repeating each along its new axis. Read at `(i, j, l)`:
    * `[a, b] → [a, b, 1]`, a cast: the entry at `(i, j, 0)` is the operand's at `(i, j)` (same row-major position);
    * `[a, b, 1] → [a, b, c]`, a broadcast: the entry at `(i, j, l)` is the operand's at `(i, j, 0)`;
    * `[1, b, c] → [a, b, c]`, a broadcast: the entry at `(i, j, l)` is the operand's at `(0, j, l)`.
  (The cast `[a, b] → [1, a, b]` is the library's `shapeCast_ab_1ab_apply`.) The extents are arbitrary naturals; on an axis
  whose extent happens to be one the only coordinate is 0, which is what a broadcast reads there anyway.
-/
import Idealize.ShloMosaic.Lib.Pipeline.Value
import Idealize.ShloMosaic.Lib.ValueIdx

namespace Cert.LayoutRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LayoutRank3
-- ==== Proof.IdealPayload.lean ====
/-
  What the body stores, entry by entry. A block is [1, 8, 512, 32] (one batch entry, eight image rows) for an image and
  [1, 8, 512] for a weight. The body drops the leading unit axis, gives each weight a trailing unit axis and spreads it
  over the 32 channels, multiplies, adds from the left, and puts the leading unit axis back: the stored entry at
  (0, r, q, ch) is ((wa (0, r, q) · Ia (0, r, q, ch) + wb · Ib) + wc · Ic) + wd · Id at the same places.
-/
import proofs.«154991_j86775519248465_2_alg».proof.Proof.Gen.KernelIdeal.Skeleton
import proofs.«154991_j86775519248465_2_alg».proof.Proof.LibLayoutRank3
import Idealize.ShloMosaic.PureOps.Ideal
import Idealize.ShloMosaic.Lib.ValueLayout
import Idealize.ShloMosaic.Lib.ValueIdx
import Idealize.ShloMosaic.Lib.Pipeline.Value

set_option maxRecDepth 16384

noncomputable section

namespace Cert.KernelIdeal.Payload

open Cert.KernelIdeal Cert.KernelIdeal.Gen Cert.LayoutRank3
open Idealize.ShloMosaic Idealize.ShloMosaic.ValueIdx

/-- The stored block at (0, r, q, ch), from the eight loaded blocks: `x0 … x3` the corner images, `x4 … x7` their weights. -/
theorem stored_apply (x0 x1 x2 x3 : FVec Ideal S1x8x512x32 .f32) (x4 x5 x6 x7 : FVec Ideal S1x8x512 .f32)
    (r : Fin 8) (q : Fin 512) (ch : Fin 32) :
    k0_pay1 (F := Ideal) (k0_pay2 x4 x5 x6 x0 x1 x2) (k0_pay3 x7 x3) (ix4 (0 : Fin 1) r q ch)
      = ((x4 (ix3 (0 : Fin 1) r q) * x0 (ix4 (0 : Fin 1) r q ch) + x5 (ix3 (0 : Fin 1) r q) * x1 (ix4 (0 : Fin 1) r q ch))
          + x6 (ix3 (0 : Fin 1) r q) * x2 (ix4 (0 : Fin 1) r q ch)) + x7 (ix3 (0 : Fin 1) r q) * x3 (ix4 (0 : Fin 1) r q ch) := by
  unfold k0_pay1 k0_pay2 k0_pay3
  simp only [shapeCast_abc_1abc_apply, addf_apply, mulf_apply, broadcastTo_ab1_abc_apply, shapeCast_ab_ab1_apply,
    shapeCast_1ab_ab_apply, shapeCast_1abc_abc_apply]

end Cert.KernelIdeal.Payload

end
-- ==== Proof.Blend.lean ====
/-
  Bilinear sampling, the last step: at every output index (b, h, w, ch) the result is the sum of the four corner images
  at that index, each weighted by its pixel's weight,

      out (b, h, w, ch) = ((wa (b, h, w) · Ia (b, h, w, ch) + wb (b, h, w) · Ib (b, h, w, ch))
                            + wc (b, h, w) · Ic (b, h, w, ch)) + wd (b, h, w) · Id (b, h, w, ch),

  on the extended reals, the sum grouped from the left. Both programs compute this function of the same eight arrays; no
  law of arithmetic is needed to join them, only that each reads the entries this formula names.
-/
import Idealize.ShloMosaic.PureOps.Ideal
import Idealize.ShloMosaic.Lib.ValueIdx

noncomputable section

namespace Cert.Blend

open Idealize.ShloMosaic Idealize.ShloMosaic.ValueIdx

/-- The images' shape: batch, row, column, channel. -/
abbrev Img : Shape := ⟨4, ![8, 512, 512, 32]⟩
/-- The weights' shape: batch, row, column. -/
abbrev Pix : Shape := ⟨3, ![8, 512, 512]⟩

/-- The pixel an image entry belongs to: its index without the channel. -/
def pixel (i : Img.Idx) : Pix.Idx := ix3 (n0 := 8) (n1 := 512) (n2 := 512) (i 0) (i 1) (i 2)

/-- The weighted sum of the four corner images, entry by entry. -/
def blend (Ia Ib Ic Id : Img.Idx → EReal) (wa wb wc wd : Pix.Idx → EReal) : Img.Idx → EReal :=
  fun i => ((wa (pixel i) * Ia i + wb (pixel i) * Ib i) + wc (pixel i) * Ic i) + wd (pixel i) * Id i

theorem blend_apply (Ia Ib Ic Id : Img.Idx → EReal) (wa wb wc wd : Pix.Idx → EReal) (i : Img.Idx) :
    blend Ia Ib Ic Id wa wb wc wd i = ((wa (pixel i) * Ia i + wb (pixel i) * Ib i) + wc (pixel i) * Ic i) + wd (pixel i) * Id i := rfl

end Cert.Blend

end
-- ==== Proof.IdealFlushed.lean ====
/-
  What a grid point writes back. The output block's entry (0, r, q, ch) of point (b, k) is array entry (b, 8k + r, q, ch);
  the body computed it from the four corner images at that same array entry and the four weights at its pixel
  (b, 8k + r, q), because every input window's block sits where the output's does. So the point writes back its block of
  `blend` of the eight arrays as the region finds them. The arithmetic is done once, over eight arbitrary arrays.
-/
import proofs.«154991_j86775519248465_2_alg».proof.Proof.IdealIndex
import proofs.«154991_j86775519248465_2_alg».proof.Proof.IdealPayload
import proofs.«154991_j86775519248465_2_alg».proof.Proof.Blend

set_option maxRecDepth 16384

noncomputable section

namespace Cert.KernelIdeal.Region

open Cert.KernelIdeal Cert.KernelIdeal.Gen Cert.KernelIdeal.Payload Cert.Blend
open Idealize.ShloMosaic Idealize.ShloMosaic.TcCoe Idealize.ShloMosaic.ValueIdx
open Idealize.SL Idealize.SL.Sem
open Idealize.ShloMosaic.Pipeline (Dat Cfg Window)

set_option maxHeartbeats 8000000 in
/-- For any eight arrays: the body's result on their blocks at point `t`, read through the output window's block, is block `t`
    of their weighted sum. -/
theorem stored_block (A0 A1 A2 A3 : S8x512x512x32.Idx → EReal) (A4 A5 A6 A7 : S8x512x512.Idx → EReal) (t : Fin cfg0.N) :
    (cfg0.win 8).cut (grid0.coords t) (out8 (F := Ideal) (fun y => A0 (((cfg0.win 0).blk t).view.emb y)) (fun y => A1 (((cfg0.win 1).blk t).view.emb y)) (fun y => A2 (((cfg0.win 2).blk t).view.emb y)) (fun y => A3 (((cfg0.win 3).blk t).view.emb y)) (fun y => A4 (((cfg0.win 4).blk t).view.emb y)) (fun y => A5 (((cfg0.win 5).blk t).view.emb y)) (fun y => A6 (((cfg0.win 6).blk t).view.emb y)) (fun y => A7 (((cfg0.win 7).blk t).view.emb y)))
      = fun j => blend A0 A1 A2 A3 A4 A5 A6 A7 (((cfg0.win 8).blk t).view.emb j) := by
  unfold out8
  rw [View.canon_unit_zero zero4]
  simp only [View.ld_unit_zero (S := S1x8x512x32) zero4, View.ld_unit_zero (S := S1x8x512) zero3]
  obtain ⟨e0, e1, e2, e3, e4, e5, e6, e7, e8, e9, e10, e11, e12, e13, e14, e15, e16, e17, e18, e19, e20, e21, e22, e23, e24, e25, e26, e27, e28, e29, e30, e31⟩ := index_facts t
  funext j
  obtain ⟨r, q, ch, rfl⟩ : ∃ (r : Fin 8) (q : Fin 512) (ch : Fin 32), j = ix4 (0 : Fin 1) r q ch :=
    ⟨j 1, j 2, j 3, funext fun a => by
      match a with
      | ⟨0, _⟩ => exact Fin.ext (by have h : (j 0).val < 1 := (j 0).isLt; show (j 0).val = 0; omega)
      | ⟨1, _⟩ => rfl
      | ⟨2, _⟩ => rfl
      | ⟨3, _⟩ => rfl⟩
  refine (stored_apply (fun y => A0 (((cfg0.win 0).blk t).view.emb y)) (fun y => A1 (((cfg0.win 1).blk t).view.emb y)) (fun y => A2 (((cfg0.win 2).blk t).view.emb y)) (fun y => A3 (((cfg0.win 3).blk t).view.emb y)) (fun y => A4 (((cfg0.win 4).blk t).view.emb y)) (fun y => A5 (((cfg0.win 5).blk t).view.emb y)) (fun y => A6 (((cfg0.win 6).blk t).view.emb y)) (fun y => A7 (((cfg0.win 7).blk t).view.emb y)) r q ch).trans ?_
  show ((A4 (((cfg0.win 4).blk t).view.emb (ix3 (0 : Fin 1) r q)) * A0 (((cfg0.win 0).blk t).view.emb (ix4 (0 : Fin 1) r q ch))
        + A5 (((cfg0.win 5).blk t).view.emb (ix3 (0 : Fin 1) r q)) * A1 (((cfg0.win 1).blk t).view.emb (ix4 (0 : Fin 1) r q ch)))
        + A6 (((cfg0.win 6).blk t).view.emb (ix3 (0 : Fin 1) r q)) * A2 (((cfg0.win 2).blk t).view.emb (ix4 (0 : Fin 1) r q ch)))
        + A7 (((cfg0.win 7).blk t).view.emb (ix3 (0 : Fin 1) r q)) * A3 (((cfg0.win 3).blk t).view.emb (ix4 (0 : Fin 1) r q ch))
      = blend A0 A1 A2 A3 A4 A5 A6 A7 (((cfg0.win 8).blk t).view.emb (ix4 (0 : Fin 1) r q ch))
  have h0 : ((cfg0.win 0).blk t).view.emb (ix4 (0 : Fin 1) r q ch) = ((cfg0.win 8).blk t).view.emb (ix4 (0 : Fin 1) r q ch) := by
    funext a; apply Fin.ext
    match a with
    | ⟨0, _⟩ => show win0_0.index t (0 : Fin 4) * 1 + 1 * ((0 : Fin 1)).val = win0_8.index t (0 : Fin 4) * 1 + 1 * ((0 : Fin 1)).val; omega
    | ⟨1, _⟩ => show win0_0.index t (1 : Fin 4) * 8 + 1 * (r).val = win0_8.index t (1 : Fin 4) * 8 + 1 * (r).val; omega
    | ⟨2, _⟩ => show win0_0.index t (2 : Fin 4) * 512 + 1 * (q).val = win0_8.index t (2 : Fin 4) * 512 + 1 * (q).val; omega
    | ⟨3, _⟩ => show win0_0.index t (3 : Fin 4) * 32 + 1 * (ch).val = win0_8.index t (3 : Fin 4) * 32 + 1 * (ch).val; omega
  have h1 : ((cfg0.win 1).blk t).view.emb (ix4 (0 : Fin 1) r q ch) = ((cfg0.win 8).blk t).view.emb (ix4 (0 : Fin 1) r q ch) := by
    funext a; apply Fin.ext
    match a with
    | ⟨0, _⟩ => show win0_1.index t (0 : Fin 4) * 1 + 1 * ((0 : Fin 1)).val = win0_8.index t (0 : Fin 4) * 1 + 1 * ((0 : Fin 1)).val; omega
    | ⟨1, _⟩ => show win0_1.index t (1 : Fin 4) * 8 + 1 * (r).val = win0_8.index t (1 : Fin 4) * 8 + 1 * (r).val; omega
    | ⟨2, _⟩ => show win0_1.index t (2 : Fin 4) * 512 + 1 * (q).val = win0_8.index t (2 : Fin 4) * 512 + 1 * (q).val; omega
    | ⟨3, _⟩ => show win0_1.index t (3 : Fin 4) * 32 + 1 * (ch).val = win0_8.index t (3 : Fin 4) * 32 + 1 * (ch).val; omega
  have h2 : ((cfg0.win 2).blk t).view.emb (ix4 (0 : Fin 1) r q ch) = ((cfg0.win 8).blk t).view.emb (ix4 (0 : Fin 1) r q ch) := by
    funext a; apply Fin.ext
    match a with
    | ⟨0, _⟩ => show win0_2.index t (0 : Fin 4) * 1 + 1 * ((0 : Fin 1)).val = win0_8.index t (0 : Fin 4) * 1 + 1 * ((0 : Fin 1)).val; omega
    | ⟨1, _⟩ => show win0_2.index t (1 : Fin 4) * 8 + 1 * (r).val = win0_8.index t (1 : Fin 4) * 8 + 1 * (r).val; omega
    | ⟨2, _⟩ => show win0_2.index t (2 : Fin 4) * 512 + 1 * (q).val = win0_8.index t (2 : Fin 4) * 512 + 1 * (q).val; omega
    | ⟨3, _⟩ => show win0_2.index t (3 : Fin 4) * 32 + 1 * (ch).val = win0_8.index t (3 : Fin 4) * 32 + 1 * (ch).val; omega
  have h3 : ((cfg0.win 3).blk t).view.emb (ix4 (0 : Fin 1) r q ch) = ((cfg0.win 8).blk t).view.emb (ix4 (0 : Fin 1) r q ch) := by
    funext a; apply Fin.ext
    match a with
    | ⟨0, _⟩ => show win0_3.index t (0 : Fin 4) * 1 + 1 * ((0 : Fin 1)).val = win0_8.index t (0 : Fin 4) * 1 + 1 * ((0 : Fin 1)).val; omega
    | ⟨1, _⟩ => show win0_3.index t (1 : Fin 4) * 8 + 1 * (r).val = win0_8.index t (1 : Fin 4) * 8 + 1 * (r).val; omega
    | ⟨2, _⟩ => show win0_3.index t (2 : Fin 4) * 512 + 1 * (q).val = win0_8.index t (2 : Fin 4) * 512 + 1 * (q).val; omega
    | ⟨3, _⟩ => show win0_3.index t (3 : Fin 4) * 32 + 1 * (ch).val = win0_8.index t (3 : Fin 4) * 32 + 1 * (ch).val; omega
  have h4 : ((cfg0.win 4).blk t).view.emb (ix3 (0 : Fin 1) r q) = pixel (((cfg0.win 8).blk t).view.emb (ix4 (0 : Fin 1) r q ch)) := by
    funext a; apply Fin.ext
    match a with
    | ⟨0, _⟩ => show win0_4.index t (0 : Fin 3) * 1 + 1 * ((0 : Fin 1)).val = win0_8.index t (0 : Fin 4) * 1 + 1 * ((0 : Fin 1)).val; omega
    | ⟨1, _⟩ => show win0_4.index t (1 : Fin 3) * 8 + 1 * (r).val = win0_8.index t (1 : Fin 4) * 8 + 1 * (r).val; omega
    | ⟨2, _⟩ => show win0_4.index t (2 : Fin 3) * 512 + 1 * (q).val = win0_8.index t (2 : Fin 4) * 512 + 1 * (q).val; omega
  have h5 : ((cfg0.win 5).blk t).view.emb (ix3 (0 : Fin 1) r q) = pixel (((cfg0.win 8).blk t).view.emb (ix4 (0 : Fin 1) r q ch)) := by
    funext a; apply Fin.ext
    match a with
    | ⟨0, _⟩ => show win0_5.index t (0 : Fin 3) * 1 + 1 * ((0 : Fin 1)).val = win0_8.index t (0 : Fin 4) * 1 + 1 * ((0 : Fin 1)).val; omega
    | ⟨1, _⟩ => show win0_5.index t (1 : Fin 3) * 8 + 1 * (r).val = win0_8.index t (1 : Fin 4) * 8 + 1 * (r).val; omega
    | ⟨2, _⟩ => show win0_5.index t (2 : Fin 3) * 512 + 1 * (q).val = win0_8.index t (2 : Fin 4) * 512 + 1 * (q).val; omega
  have h6 : ((cfg0.win 6).blk t).view.emb (ix3 (0 : Fin 1) r q) = pixel (((cfg0.win 8).blk t).view.emb (ix4 (0 : Fin 1) r q ch)) := by
    funext a; apply Fin.ext
    match a with
    | ⟨0, _⟩ => show win0_6.index t (0 : Fin 3) * 1 + 1 * ((0 : Fin 1)).val = win0_8.index t (0 : Fin 4) * 1 + 1 * ((0 : Fin 1)).val; omega
    | ⟨1, _⟩ => show win0_6.index t (1 : Fin 3) * 8 + 1 * (r).val = win0_8.index t (1 : Fin 4) * 8 + 1 * (r).val; omega
    | ⟨2, _⟩ => show win0_6.index t (2 : Fin 3) * 512 + 1 * (q).val = win0_8.index t (2 : Fin 4) * 512 + 1 * (q).val; omega
  have h7 : ((cfg0.win 7).blk t).view.emb (ix3 (0 : Fin 1) r q) = pixel (((cfg0.win 8).blk t).view.emb (ix4 (0 : Fin 1) r q ch)) := by
    funext a; apply Fin.ext
    match a with
    | ⟨0, _⟩ => show win0_7.index t (0 : Fin 3) * 1 + 1 * ((0 : Fin 1)).val = win0_8.index t (0 : Fin 4) * 1 + 1 * ((0 : Fin 1)).val; omega
    | ⟨1, _⟩ => show win0_7.index t (1 : Fin 3) * 8 + 1 * (r).val = win0_8.index t (1 : Fin 4) * 8 + 1 * (r).val; omega
    | ⟨2, _⟩ => show win0_7.index t (2 : Fin 3) * 512 + 1 * (q).val = win0_8.index t (2 : Fin 4) * 512 + 1 * (q).val; omega
  rw [h0, h1, h2, h3, h4, h5, h6, h7, blend_apply]

variable (m : (ℓ : Loc nD τ sig) → Buf (Elt Ideal) ℓ)

set_option maxHeartbeats 8000000 in
/-- What point `t` writes back is block `t` of the weighted sum of the eight arrays as the region finds them. -/
theorem flushed_blend (c : Dev nD) (t : Fin cfg0.N) :
    (dats m 0 c).flushed 8 t = ((cfg0.win 8).blk t).view.read (Elt Ideal) (blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))) := by
  show (cfg0.win 8).cut (grid0.coords t) ((dats m 0 c).after 8 t) = _
  rw [after8]
  exact stored_block (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) t

end Cert.KernelIdeal.Region

end
-- ==== Proof.IdealArray.lean ====
/-
  The whole output array after the run: the blocks written back tile it and each is its block of `blend` of the eight
  arrays the region finds, so the array is that function; and the run re-posted with the array named.
-/
import proofs.«154991_j86775519248465_2_alg».proof.Proof.IdealFlushed

set_option maxRecDepth 16384

noncomputable section

namespace Cert.KernelIdeal.Region

open Cert.KernelIdeal Cert.KernelIdeal.Gen Cert.KernelIdeal.Payload Cert.Blend
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The output array after the run: the weighted sum of the eight arrays as the region finds them. -/
theorem final_blend (c : Dev nD) : (dats m 0 c).arrAt 8 cfg0.N = blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) :=
  (dats m 0 c).arrAt_eq_of_cover 8 (blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))) (fun t _ => flushed_blend m c t) covered

/-- The run, read: the result array ends at the weighted sum of the eight region-entry arrays, both arguments as launched. -/
theorem run_blend : θ_run defs (onTc (τ := τ) (main (F := Ideal))) ⟨m, fun _ => 0, ρ⟩ fun r => ∀ c : Dev nD,
      r.2.mem ((c.tc : Thread nD τ).loc main_v130) = blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 8).trans (final_blend m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Region

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.IdealEntryValues.lean ====
/-
  The arrays the region finds are the reference's. The kernel program's host operations before the region are, one for
  one, the reference program's first operations: the same coordinates, floors, clips, gathers and weight products of the
  same two arguments. So each of the region's eight operand arrays is the reference's stage for the same quantity,
  applied to the image and the sampling grid as launched. The eight are read off the host operations together, in one
  pass: they share most of what they depend on.
-/
import proofs.«154991_j86775519248465_2_alg».proof.Proof.IdealEntry
import proofs.«154991_j86775519248465_2_alg».proof.Proof.Gen.ReferenceIdeal.Read
import proofs.«154991_j86775519248465_2_alg».proof.Proof.LibTypedRefs

set_option maxRecDepth 16384

noncomputable section

namespace Cert.KernelIdeal.Region

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 400000000 in
/-- The four corner images and the four weights at the region's entry, together. -/
theorem entry_all (c : Dev nD) :
    (V m c main_v50, V m c main_v71, V m c main_v92, V m c main_v113, V m c main_v120, V m c main_v123, V m c main_v126, V m c main_v129)
      = (Cert.ReferenceIdeal.Read.val_main_v50 (F := F) (m ((c : Thread nD τ).loc main_arg0)) (m ((c : Thread nD τ).loc main_arg1)),
        Cert.ReferenceIdeal.Read.val_main_v71 (F := F) (m ((c : Thread nD τ).loc main_arg0)) (m ((c : Thread nD τ).loc main_arg1)),
        Cert.ReferenceIdeal.Read.val_main_v92 (F := F) (m ((c : Thread nD τ).loc main_arg0)) (m ((c : Thread nD τ).loc main_arg1)),
        Cert.ReferenceIdeal.Read.val_main_v113 (F := F) (m ((c : Thread nD τ).loc main_arg0)) (m ((c : Thread nD τ).loc main_arg1)),
        Cert.ReferenceIdeal.Read.val_main_v120 (F := F) (m ((c : Thread nD τ).loc main_arg1)),
        Cert.ReferenceIdeal.Read.val_main_v124 (F := F) (m ((c : Thread nD τ).loc main_arg1)),
        Cert.ReferenceIdeal.Read.val_main_v128 (F := F) (m ((c : Thread nD τ).loc main_arg1)),
        Cert.ReferenceIdeal.Read.val_main_v132 (F := F) (m ((c : Thread nD τ).loc main_arg1))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.ofBuf_toBuf]
  rfl

/-- At the region's entry `main_v50` holds the corner image at (y₀, x₀), as the reference computes it. -/
theorem entry_main_v50 (c : Dev nD) :
    V m c main_v50 = Cert.ReferenceIdeal.Read.val_main_v50 (F := F) (m ((c : Thread nD τ).loc main_arg0)) (m ((c : Thread nD τ).loc main_arg1)) :=
  congrArg (fun p => p.1) (entry_all m c)
/-- At the region's entry `main_v71` holds the corner image at (y₁, x₀), as the reference computes it. -/
theorem entry_main_v71 (c : Dev nD) :
    V m c main_v71 = Cert.ReferenceIdeal.Read.val_main_v71 (F := F) (m ((c : Thread nD τ).loc main_arg0)) (m ((c : Thread nD τ).loc main_arg1)) :=
  congrArg (fun p => p.2.1) (entry_all m c)
/-- At the region's entry `main_v92` holds the corner image at (y₀, x₁), as the reference computes it. -/
theorem entry_main_v92 (c : Dev nD) :
    V m c main_v92 = Cert.ReferenceIdeal.Read.val_main_v92 (F := F) (m ((c : Thread nD τ).loc main_arg0)) (m ((c : Thread nD τ).loc main_arg1)) :=
  congrArg (fun p => p.2.2.1) (entry_all m c)
/-- At the region's entry `main_v113` holds the corner image at (y₁, x₁), as the reference computes it. -/
theorem entry_main_v113 (c : Dev nD) :
    V m c main_v113 = Cert.ReferenceIdeal.Read.val_main_v113 (F := F) (m ((c : Thread nD τ).loc main_arg0)) (m ((c : Thread nD τ).loc main_arg1)) :=
  congrArg (fun p => p.2.2.2.1) (entry_all m c)
/-- At the region's entry `main_v120` holds the weight (x₁ − x)(y₁ − y), as the reference computes it. -/
theorem entry_main_v120 (c : Dev nD) :
    V m c main_v120 = Cert.ReferenceIdeal.Read.val_main_v120 (F := F) (m ((c : Thread nD τ).loc main_arg1)) :=
  congrArg (fun p => p.2.2.2.2.1) (entry_all m c)
/-- At the region's entry `main_v123` holds the weight (x₁ − x)(y − y₀), as the reference computes it. -/
theorem entry_main_v123 (c : Dev nD) :
    V m c main_v123 = Cert.ReferenceIdeal.Read.val_main_v124 (F := F) (m ((c : Thread nD τ).loc main_arg1)) :=
  congrArg (fun p => p.2.2.2.2.2.1) (entry_all m c)
/-- At the region's entry `main_v126` holds the weight (x − x₀)(y₁ − y), as the reference computes it. -/
theorem entry_main_v126 (c : Dev nD) :
    V m c main_v126 = Cert.ReferenceIdeal.Read.val_main_v128 (F := F) (m ((c : Thread nD τ).loc main_arg1)) :=
  congrArg (fun p => p.2.2.2.2.2.2.1) (entry_all m c)
/-- At the region's entry `main_v129` holds the weight (x − x₀)(y − y₀), as the reference computes it. -/
theorem entry_main_v129 (c : Dev nD) :
    V m c main_v129 = Cert.ReferenceIdeal.Read.val_main_v132 (F := F) (m ((c : Thread nD τ).loc main_arg1)) :=
  congrArg (fun p => p.2.2.2.2.2.2.2) (entry_all m c)

end Cert.KernelIdeal.Region

end
-- ==== Proof.IdealEntryWindows.lean ====
/-
  The same eight facts, window by window: the array window `w` of the region stages holds, at the region's entry, the
  reference's stage for the same quantity.
-/
import proofs.«154991_j86775519248465_2_alg».proof.Proof.IdealEntryValues

set_option maxRecDepth 16384

noncomputable section

namespace Cert.KernelIdeal.Region

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 4000000 in
/-- Window 0's array is `main_v50`: the corner image at (y₀, x₀). -/
theorem entry_window0 (c : Dev nD) :
    V m c (Pipeline.arrRef spec0 0) = Cert.ReferenceIdeal.Read.val_main_v50 (F := F) (m ((c : Thread nD τ).loc main_arg0)) (m ((c : Thread nD τ).loc main_arg1)) :=
  entry_main_v50 m c
set_option maxHeartbeats 4000000 in
/-- Window 1's array is `main_v71`: the corner image at (y₁, x₀). -/
theorem entry_window1 (c : Dev nD) :
    V m c (Pipeline.arrRef spec0 1) = Cert.ReferenceIdeal.Read.val_main_v71 (F := F) (m ((c : Thread nD τ).loc main_arg0)) (m ((c : Thread nD τ).loc main_arg1)) :=
  entry_main_v71 m c
set_option maxHeartbeats 4000000 in
/-- Window 2's array is `main_v92`: the corner image at (y₀, x₁). -/
theorem entry_window2 (c : Dev nD) :
    V m c (Pipeline.arrRef spec0 2) = Cert.ReferenceIdeal.Read.val_main_v92 (F := F) (m ((c : Thread nD τ).loc main_arg0)) (m ((c : Thread nD τ).loc main_arg1)) :=
  entry_main_v92 m c
set_option maxHeartbeats 4000000 in
/-- Window 3's array is `main_v113`: the corner image at (y₁, x₁). -/
theorem entry_window3 (c : Dev nD) :
    V m c (Pipeline.arrRef spec0 3) = Cert.ReferenceIdeal.Read.val_main_v113 (F := F) (m ((c : Thread nD τ).loc main_arg0)) (m ((c : Thread nD τ).loc main_arg1)) :=
  entry_main_v113 m c
set_option maxHeartbeats 4000000 in
/-- Window 4's array is `main_v120`: the weight (x₁ − x)(y₁ − y). -/
theorem entry_window4 (c : Dev nD) :
    V m c (Pipeline.arrRef spec0 4) = Cert.ReferenceIdeal.Read.val_main_v120 (F := F) (m ((c : Thread nD τ).loc main_arg1)) :=
  entry_main_v120 m c
set_option maxHeartbeats 4000000 in
/-- Window 5's array is `main_v123`: the weight (x₁ − x)(y − y₀). -/
theorem entry_window5 (c : Dev nD) :
    V m c (Pipeline.arrRef spec0 5) = Cert.ReferenceIdeal.Read.val_main_v124 (F := F) (m ((c : Thread nD τ).loc main_arg1)) :=
  entry_main_v123 m c
set_option maxHeartbeats 4000000 in
/-- Window 6's array is `main_v126`: the weight (x − x₀)(y₁ − y). -/
theorem entry_window6 (c : Dev nD) :
    V m c (Pipeline.arrRef spec0 6) = Cert.ReferenceIdeal.Read.val_main_v128 (F := F) (m ((c : Thread nD τ).loc main_arg1)) :=
  entry_main_v126 m c
set_option maxHeartbeats 4000000 in
/-- Window 7's array is `main_v129`: the weight (x − x₀)(y − y₀). -/
theorem entry_window7 (c : Dev nD) :
    V m c (Pipeline.arrRef spec0 7) = Cert.ReferenceIdeal.Read.val_main_v132 (F := F) (m ((c : Thread nD τ).loc main_arg1)) :=
  entry_main_v129 m c

end Cert.KernelIdeal.Region

end
-- ==== Proof.ReferenceStages.lean ====
/-
  The reference program's result at an index. Its last fifteen operations give each of the four weight arrays a trailing
  unit axis, spread it over the 32 channels, multiply by the corner image and add from the left; read at an image index
  (b, h, w, ch) each spread weight is the weight at the pixel (b, h, w). So the result is `Cert.Blend.blend` of the eight
  stages those operations start from: the four gathered corner images and the four weight products.
-/
import proofs.«154991_j86775519248465_2_alg».proof.Proof.Gen.ReferenceIdeal.Read
import proofs.«154991_j86775519248465_2_alg».proof.Proof.Blend

set_option maxRecDepth 16384

noncomputable section

namespace Cert.ReferenceIdeal.Stages

open Cert.ReferenceIdeal Cert.ReferenceIdeal.Read Cert.Blend
open Idealize.ShloMosaic Idealize.ShloMosaic.ValueIdx

/-- Spread over the channels, then given its unit axis: read at an image entry, the weight's index is the entry's pixel. -/
theorem pixel_121_134 (i : S8x512x512x32.Idx) : idx_main_v121 (idx_main_v134 i) = pixel i :=
  funext fun a => Fin.ext (by match a with | ⟨0, _⟩ => rfl | ⟨1, _⟩ => rfl | ⟨2, _⟩ => rfl)
/-- Spread over the channels, then given its unit axis: read at an image entry, the weight's index is the entry's pixel. -/
theorem pixel_125_136 (i : S8x512x512x32.Idx) : idx_main_v125 (idx_main_v136 i) = pixel i :=
  funext fun a => Fin.ext (by match a with | ⟨0, _⟩ => rfl | ⟨1, _⟩ => rfl | ⟨2, _⟩ => rfl)
/-- Spread over the channels, then given its unit axis: read at an image entry, the weight's index is the entry's pixel. -/
theorem pixel_129_139 (i : S8x512x512x32.Idx) : idx_main_v129 (idx_main_v139 i) = pixel i :=
  funext fun a => Fin.ext (by match a with | ⟨0, _⟩ => rfl | ⟨1, _⟩ => rfl | ⟨2, _⟩ => rfl)
/-- Spread over the channels, then given its unit axis: read at an image entry, the weight's index is the entry's pixel. -/
theorem pixel_133_142 (i : S8x512x512x32.Idx) : idx_main_v133 (idx_main_v142 i) = pixel i :=
  funext fun a => Fin.ext (by match a with | ⟨0, _⟩ => rfl | ⟨1, _⟩ => rfl | ⟨2, _⟩ => rfl)

/-- The reference's result is the weighted sum of its four gathered corner images by its four weight products. -/
theorem result_blend (x0 : (⟨S8x512x512x32, .f32⟩ : BufTy).Contents (Elt Ideal)) (x1 : (⟨S8x512x512x2, .f32⟩ : BufTy).Contents (Elt Ideal)) :
    val_main_v144 (F := Ideal) x0 x1
      = blend (val_main_v50 (F := Ideal) x0 x1) (val_main_v71 (F := Ideal) x0 x1) (val_main_v92 (F := Ideal) x0 x1) (val_main_v113 (F := Ideal) x0 x1)
          (val_main_v120 (F := Ideal) x1) (val_main_v124 (F := Ideal) x1) (val_main_v128 (F := Ideal) x1) (val_main_v132 (F := Ideal) x1) := by
  funext i
  rw [val_main_v144_apply, val_main_v141_apply, val_main_v138_apply,
    val_main_v135_apply, val_main_v134_apply, val_main_v121_apply,
    val_main_v137_apply, val_main_v136_apply, val_main_v125_apply,
    val_main_v140_apply, val_main_v139_apply, val_main_v129_apply,
    val_main_v143_apply, val_main_v142_apply, val_main_v133_apply,
    pixel_121_134, pixel_125_136, pixel_129_139, pixel_133_142, blend_apply]
  simp only [Ideal.addf_def, Ideal.mulf_def]

end Cert.ReferenceIdeal.Stages

end
-- ==== Proof.lean ====
/-
  Bilinear grid sampling: a Pallas kernel against its jnp reference, equal on the extended reals.

  Both programs map the sampling grid to pixel coordinates x = (g₀ + 1) · 511 / 2, y = (g₁ + 1) · 511 / 2, take the floors
  x₀, y₀ and their successors x₁, y₁ clipped into [0, 511], gather the image at the four corners (y₀, x₀), (y₁, x₀), (y₀, x₁),
  (y₁, x₁) of every pixel, and form the weights (x₁ − x)(y₁ − y), (x₁ − x)(y − y₀), (x − x₀)(y₁ − y), (x − x₀)(y − y₀) — by the
  same host operations of the same two arguments. They differ in where the last step runs,

      out = ((wa · Ia + wb · Ib) + wc · Ic) + wd · Id      (each weight spread over the 32 channels of its pixel):

  the reference on the host over whole arrays, the kernel in a region whose grid point (b, k) handles eight image rows of one
  batch entry. The two sums are grouped alike, so no law of arithmetic joins them and nothing is asked of the inputs: it is
  enough that the kernel's blocks tile the output and that each block's entry reads the images at the same array entry and
  the weights at its pixel.

  The frames of the two kernel programs are their runs through the region (the body loads eight blocks, stores one, and
  touches nothing else; the host operations write neither argument); the reference's frame is its run with the result
  dropped. The idealized kernel is the word-level kernel's own text read on the extended reals: nothing was rewritten.
-/
import proofs.«154991_j86775519248465_2_alg».proof.Defs
import proofs.«154991_j86775519248465_2_alg».proof.Proof.Gen.Kernel
import proofs.«154991_j86775519248465_2_alg».proof.Proof.Gen.KernelIdeal
import proofs.«154991_j86775519248465_2_alg».proof.Proof.Gen.ReferenceIdeal
import proofs.«154991_j86775519248465_2_alg».proof.Proof.Gen.Pre_finite_inputs
import proofs.«154991_j86775519248465_2_alg».proof.Proof.WordRun
import proofs.«154991_j86775519248465_2_alg».proof.Proof.IdealRun
import proofs.«154991_j86775519248465_2_alg».proof.Proof.IdealArray
import proofs.«154991_j86775519248465_2_alg».proof.Proof.IdealEntryWindows
import proofs.«154991_j86775519248465_2_alg».proof.Proof.ReferenceStages
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_word : Cert.frame_Kernel := fun m ρ _ => Cert.Kernel.Region.frame m ρ

/-- So does its reading on the extended reals. -/
theorem frame_ideal : Cert.frame_KernelIdeal := fun m ρ _ => Cert.KernelIdeal.Region.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the two kernel programs. -/
theorem preserves : Cert.preserves_Kernel_KernelIdeal := trivial

set_option maxHeartbeats 16000000 in
/-- From memories that agree on the image and the sampling grid both programs end with the weighted sum of the four corner
    images: the kernel's output array block by block, the reference's by its last fifteen operations, over the same eight
    arrays of the same arguments. -/
theorem algebraic : Cert.algebraic_KernelIdeal_ReferenceIdeal := by
  intro m ρ m' ρ' _ hagree
  refine ⟨fun c => Cert.Blend.blend (Cert.KernelIdeal.Region.V m c (Pipeline.arrRef Cert.KernelIdeal.spec0 0)) (Cert.KernelIdeal.Region.V m c (Pipeline.arrRef Cert.KernelIdeal.spec0 1)) (Cert.KernelIdeal.Region.V m c (Pipeline.arrRef Cert.KernelIdeal.spec0 2)) (Cert.KernelIdeal.Region.V m c (Pipeline.arrRef Cert.KernelIdeal.spec0 3)) (Cert.KernelIdeal.Region.V m c (Pipeline.arrRef Cert.KernelIdeal.spec0 4)) (Cert.KernelIdeal.Region.V m c (Pipeline.arrRef Cert.KernelIdeal.spec0 5)) (Cert.KernelIdeal.Region.V m c (Pipeline.arrRef Cert.KernelIdeal.spec0 6)) (Cert.KernelIdeal.Region.V m c (Pipeline.arrRef Cert.KernelIdeal.spec0 7)), Cert.KernelIdeal.Region.run_blend m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v144 m' c = Cert.Blend.blend (Cert.KernelIdeal.Region.V m c (Pipeline.arrRef Cert.KernelIdeal.spec0 0)) (Cert.KernelIdeal.Region.V m c (Pipeline.arrRef Cert.KernelIdeal.spec0 1)) (Cert.KernelIdeal.Region.V m c (Pipeline.arrRef Cert.KernelIdeal.spec0 2)) (Cert.KernelIdeal.Region.V m c (Pipeline.arrRef Cert.KernelIdeal.spec0 3)) (Cert.KernelIdeal.Region.V m c (Pipeline.arrRef Cert.KernelIdeal.spec0 4)) (Cert.KernelIdeal.Region.V m c (Pipeline.arrRef Cert.KernelIdeal.spec0 5)) (Cert.KernelIdeal.Region.V m c (Pipeline.arrRef Cert.KernelIdeal.spec0 6)) (Cert.KernelIdeal.Region.V m c (Pipeline.arrRef Cert.KernelIdeal.spec0 7))
  rw [Cert.ReferenceIdeal.Read.val_main_v144_eq, Cert.ReferenceIdeal.Stages.result_blend, (hagree c).1, (hagree c).2,
    Cert.KernelIdeal.Region.entry_window0, Cert.KernelIdeal.Region.entry_window1, Cert.KernelIdeal.Region.entry_window2, Cert.KernelIdeal.Region.entry_window3, Cert.KernelIdeal.Region.entry_window4, Cert.KernelIdeal.Region.entry_window5, Cert.KernelIdeal.Region.entry_window6, Cert.KernelIdeal.Region.entry_window7]

theorem claim : Cert.Claim := ⟨Cert.Kernel.Gen.facts, Cert.KernelIdeal.Gen.facts, Cert.ReferenceIdeal.Gen.facts, Cert.Pre_finite_inputs.Gen.facts,
  frame_word, frame_ideal, frame_reference, preserves, algebraic⟩

end Cert.Proof

end
